-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v311) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x4 : Shape := ⟨2, ![1048576, 4]⟩
abbrev S_ : Shape := ⟨0, ![]⟩

class Facts : Prop where
  bcast_S_S1048576x4 : S_.BroadcastsInDim S1048576x4 (![] : Fin 0 → Fin S1048576x4.rank)
  reducesTo_S1048576x4_S_d0_1 : S1048576x4.ReducesTo [0, 1] S_
  h_S_ : 0 < S_.numel

variable [Facts]

def fn {F : FTy → Type} [FloatOps F] (main_arg0 : FVec F S1048576x4 .f32) (main_arg1 : FVec F S1048576x4 .f32) : IVec S_ 1 :=
  let main_v0 : FVec F S1048576x4 .f32 := Host.absf main_arg0
  let main_cst : FVec F S_ .f32 := constant S_ .f32 0x7F800000#32
  let main_v1 : FVec F S1048576x4 .f32 := broadcastInDim S1048576x4 ![] bcast_S_S1048576x4 main_cst
  let main_v2 : IVec S1048576x4 1 := cmpf .olt main_v0 main_v1
  let main_c : IVec S_ 1 := constantI S_ 1 1#1
  let main_v3 : IVec S_ 1 := (fun x v => Host.reduce IntOp.andi x v reducesTo_S1048576x4_S_d0_1 h_S_) main_v2 main_c
  let main_v4 : FVec F S1048576x4 .f32 := Host.absf main_arg1
  let main_cst_0 : FVec F S_ .f32 := constant S_ .f32 0x7F800000#32
  let main_v5 : FVec F S1048576x4 .f32 := broadcastInDim S1048576x4 ![] bcast_S_S1048576x4 main_cst_0
  let main_v6 : IVec S1048576x4 1 := cmpf .olt main_v4 main_v5
  let main_c_1 : IVec S_ 1 := constantI S_ 1 1#1
  let main_v7 : IVec S_ 1 := (fun x v => Host.reduce IntOp.andi x v reducesTo_S1048576x4_S_d0_1 h_S_) main_v6 main_c_1
  let main_v8 : IVec S_ 1 := andi main_v3 main_v7
  main_v8
-- ==== Kernel.lean ====
abbrev S1048576x4 : Shape := ⟨2, ![1048576, 4]⟩
abbrev S8192x4 : Shape := ⟨2, ![8192, 4]⟩
abbrev S8192x1 : Shape := ⟨2, ![8192, 1]⟩
abbrev S8192 : Shape := ⟨1, ![8192]⟩
abbrev S64x128 : Shape := ⟨2, ![64, 128]⟩

abbrev nBuf : Space → Nat
  | .hbm => 3
  | .vmem => 6
  | .smem => 0
  | _ => 0

abbrev bufTy : (tb : Table) → Fin (tcTables nBuf tb) → BufTy
  | .hbm, ⟨0, _⟩ => ⟨S1048576x4, .f32⟩
  | .hbm, ⟨1, _⟩ => ⟨S1048576x4, .f32⟩
  | .hbm, ⟨2, _⟩ => ⟨S1048576x4, .f32⟩
  | .local _ .vmem, ⟨0, _⟩ => ⟨S8192x4, .f32⟩
  | .local _ .vmem, ⟨1, _⟩ => ⟨S8192x4, .f32⟩
  | .local _ .vmem, ⟨2, _⟩ => ⟨S8192x4, .f32⟩
  | .local _ .vmem, ⟨3, _⟩ => ⟨S8192x4, .f32⟩
  | .local _ .vmem, ⟨4, _⟩ => ⟨S8192x4, .f32⟩
  | .local _ .vmem, ⟨5, _⟩ => ⟨S8192x4, .f32⟩
  | _, _ => ⟨S1048576x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S8192x4_S8192x4_0_0 : ∀ a, (![0, 0] : Fin 2 → Nat) a + S8192x4.size a ≤ S8192x4.size a
  h_S8192x4 : 0 < S8192x4.numel
  slices_S8192x4_o0_0_S8192x1 : S8192x4.Slices ![0, 0] S8192x1
  shapeCasts_S8192x1_S8192 : S8192x1.ShapeCasts S8192
  shapeCasts_S8192_S64x128 : S8192.ShapeCasts S64x128
  slices_S8192x4_o0_1_S8192x1 : S8192x4.Slices ![0, 1] S8192x1
  slices_S8192x4_o0_2_S8192x1 : S8192x4.Slices ![0, 2] S8192x1
  slices_S8192x4_o0_3_S8192x1 : S8192x4.Slices ![0, 3] S8192x1
  shapeCasts_S64x128_S8192 : S64x128.ShapeCasts S8192
  shapeCasts_S8192_S8192x1 : S8192.ShapeCasts S8192x1
  concatenates_S8192x1_S8192x1_S8192x1_S8192x1_S8192x4_d1 : Shape.Concatenates [S8192x1, S8192x1, S8192x1, S8192x1] S8192x4 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x4.size a ≤ S1048576x4.size a
  hwx0_0 : ∀ i : grid0.Coords, EltTy.bits .f32 = 32 ∨ (Rect.block (s := S1048576x4) S8192x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x4.size a ≤ S1048576x4.size a
  hwx0_1 : ∀ i : grid0.Coords, EltTy.bits .f32 = 32 ∨ (Rect.block (s := S1048576x4) S8192x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x4.size a ≤ S1048576x4.size a
  hwx0_2 : ∀ i : grid0.Coords, EltTy.bits .f32 = 32 ∨ (Rect.block (s := S1048576x4) S8192x4.size (cc0_transform_2 i) (hinb0_2 i)).WholeWords (EltTy.packing .f32)

variable [Facts₀]

abbrev win0_0 : Pipeline.Window sig grid0 :=
  Pipeline.Window.ofSpec (Memref.whole main_arg0) S8192x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8192x4.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1048576x4 : Shape := ⟨2, ![1048576, 4]⟩
abbrev S_ : Shape := ⟨0, ![]⟩
abbrev S1048576x16 : Shape := ⟨2, ![1048576, 16]⟩
abbrev S1 : Shape := ⟨1, ![1]⟩
abbrev S1048576 : Shape := ⟨1, ![1048576]⟩
abbrev S1048576x2x2x2x2 : Shape := ⟨5, ![1048576, 2, 2, 2, 2]⟩
abbrev S1048576x1 : Shape := ⟨2, ![1048576, 1]⟩
abbrev S1048576x8x2 : Shape := ⟨3, ![1048576, 8, 2]⟩
abbrev S1048576x8x1 : Shape := ⟨3, ![1048576, 8, 1]⟩
abbrev S1048576x8 : Shape := ⟨2, ![1048576, 8]⟩
abbrev S1048576x2 : Shape := ⟨2, ![1048576, 2]⟩

abbrev nBuf : Space → Nat
  | .hbm => 337
  | .vmem => 0
  | .smem => 0
  | _ => 0

abbrev hbmTy0_0 (i : Nat) : BufTy := match i % 128 with
  | 0 => ⟨S1048576x4, .f32⟩
  | 1 => ⟨S1048576x4, .f32⟩
  | 2 => ⟨S_, .f32⟩
  | 3 => ⟨S1048576x16, .f32⟩
  | 4 => ⟨S_, .i32⟩
  | 5 => ⟨S1, .i32⟩
  | 6 => ⟨S_, .f32⟩
  | 7 => ⟨S1048576, .f32⟩
  | 8 => ⟨S1048576x16, .f32⟩
  | 9 => ⟨S1048576x2x2x2x2, .f32⟩
  | 10 => ⟨S1048576x1, .f32⟩
  | 11 => ⟨S1048576, .f32⟩
  | 12 => ⟨S_, .f32⟩
  | 13 => ⟨S1048576, .f32⟩
  | 14 => ⟨S1048576, .f32⟩
  | 15 => ⟨S1048576, .f32⟩
  | 16 => ⟨S1048576x1, .f32⟩
  | 17 => ⟨S_, .f32⟩
  | 18 => ⟨S1048576, .f32⟩
  | 19 => ⟨S1048576, .f32⟩
  | 20 => ⟨S1048576, .f32⟩
  | 21 => ⟨S1048576x1, .f32⟩
  | 22 => ⟨S1048576x2x2x2x2, .f32⟩
  | 23 => ⟨S1048576x8x2, .f32⟩
  | 24 => ⟨S1048576x8x1, .f32⟩
  | 25 => ⟨S1048576x8, .f32⟩
  | 26 => ⟨S1048576x8, .f32⟩
  | 27 => ⟨S1048576x8, .f32⟩
  | 28 => ⟨S1048576x8x1, .f32⟩
  | 29 => ⟨S1048576x8, .f32⟩
  | 30 => ⟨S1048576x8, .f32⟩
  | 31 => ⟨S1048576x8, .f32⟩
  | 32 => ⟨S1048576x8, .f32⟩
  | 33 => ⟨S1048576x8x1, .f32⟩
  | 34 => ⟨S1048576x8, .f32⟩
  | 35 => ⟨S1048576x8, .f32⟩
  | 36 => ⟨S1048576x8, .f32⟩
  | 37 => ⟨S1048576x8x1, .f32⟩
  | 38 => ⟨S1048576x8, .f32⟩
  | 39 => ⟨S1048576x8, .f32⟩
  | 40 => ⟨S1048576x8, .f32⟩
  | 41 => ⟨S1048576x8, .f32⟩
  | 42 => ⟨S1048576x8x1, .f32⟩
  | 43 => ⟨S1048576x8x1, .f32⟩
  | 44 => ⟨S1048576x8x2, .f32⟩
  | 45 => ⟨S1048576x2x2x2x2, .f32⟩
  | 46 => ⟨S1048576x2x2x2x2, .f32⟩
  | 47 => ⟨S1048576x1, .f32⟩
  | 48 => ⟨S1048576, .f32⟩
  | 49 => ⟨S_, .f32⟩
  | 50 => ⟨S1048576, .f32⟩
  | 51 => ⟨S1048576, .f32⟩
  | 52 => ⟨S1048576, .f32⟩
  | 53 => ⟨S1048576x1, .f32⟩
  | 54 => ⟨S_, .f32⟩
  | 55 => ⟨S1048576, .f32⟩
  | 56 => ⟨S1048576, .f32⟩
  | 57 => ⟨S1048576, .f32⟩
  | 58 => ⟨S1048576x1, .f32⟩
  | 59 => ⟨S1048576x2x2x2x2, .f32⟩
  | 60 => ⟨S1048576x8x2, .f32⟩
  | 61 => ⟨S1048576x8x1, .f32⟩
  | 62 => ⟨S1048576x8, .f32⟩
  | 63 => ⟨S1048576x8, .f32⟩
  | 64 => ⟨S1048576x8, .f32⟩
  | 65 => ⟨S1048576x8x1, .f32⟩
  | 66 => ⟨S1048576x8, .f32⟩
  | 67 => ⟨S1048576x8, .f32⟩
  | 68 => ⟨S1048576x8, .f32⟩
  | 69 => ⟨S1048576x8, .f32⟩
  | 70 => ⟨S1048576x8x1, .f32⟩
  | 71 => ⟨S1048576x8, .f32⟩
  | 72 => ⟨S1048576x8, .f32⟩
  | 73 => ⟨S1048576x8, .f32⟩
  | 74 => ⟨S1048576x8x1, .f32⟩
  | 75 => ⟨S1048576x8, .f32⟩
  | 76 => ⟨S1048576x8, .f32⟩
  | 77 => ⟨S1048576x8, .f32⟩
  | 78 => ⟨S1048576x8, .f32⟩
  | 79 => ⟨S1048576x8x1, .f32⟩
  | 80 => ⟨S1048576x8x1, .f32⟩
  | 81 => ⟨S1048576x8x2, .f32⟩
  | 82 => ⟨S1048576x2x2x2x2, .f32⟩
  | 83 => ⟨S1048576x2x2x2x2, .f32⟩
  | 84 => ⟨S1048576x1, .f32⟩
  | 85 => ⟨S1048576, .f32⟩
  | 86 => ⟨S_, .f32⟩
  | 87 => ⟨S1048576, .f32⟩
  | 88 => ⟨S1048576, .f32⟩
  | 89 => ⟨S1048576, .f32⟩
  | 90 => ⟨S1048576x1, .f32⟩
  | 91 => ⟨S_, .f32⟩
  | 92 => ⟨S1048576, .f32⟩
  | 93 => ⟨S1048576, .f32⟩
  | 94 => ⟨S1048576, .f32⟩
  | 95 => ⟨S1048576x1, .f32⟩
  | 96 => ⟨S1048576x2x2x2x2, .f32⟩
  | 97 => ⟨S1048576x8x2, .f32⟩
  | 98 => ⟨S1048576x8x1, .f32⟩
  | 99 => ⟨S1048576x8, .f32⟩
  | 100 => ⟨S1048576x8, .f32⟩
  | 101 => ⟨S1048576x8, .f32⟩
  | 102 => ⟨S1048576x8x1, .f32⟩
  | 103 => ⟨S1048576x8, .f32⟩
  | 104 => ⟨S1048576x8, .f32⟩
  | 105 => ⟨S1048576x8, .f32⟩
  | 106 => ⟨S1048576x8, .f32⟩
  | 107 => ⟨S1048576x8x1, .f32⟩
  | 108 => ⟨S1048576x8, .f32⟩
  | 109 => ⟨S1048576x8, .f32⟩
  | 110 => ⟨S1048576x8, .f32⟩
  | 111 => ⟨S1048576x8x1, .f32⟩
  | 112 => ⟨S1048576x8, .f32⟩
  | 113 => ⟨S1048576x8, .f32⟩
  | 114 => ⟨S1048576x8, .f32⟩
  | 115 => ⟨S1048576x8, .f32⟩
  | 116 => ⟨S1048576x8x1, .f32⟩
  | 117 => ⟨S1048576x8x1, .f32⟩
  | 118 => ⟨S1048576x8x2, .f32⟩
  | 119 => ⟨S1048576x2x2x2x2, .f32⟩
  | 120 => ⟨S1048576x2x2x2x2, .f32⟩
  | 121 => ⟨S1048576x1, .f32⟩
  | 122 => ⟨S1048576, .f32⟩
  | 123 => ⟨S_, .f32⟩
  | 124 => ⟨S1048576, .f32⟩
  | 125 => ⟨S1048576, .f32⟩
  | 126 => ⟨S1048576, .f32⟩
  | 127 => ⟨S1048576x1, .f32⟩
  | _ => ⟨S1048576x4, .f32⟩

abbrev hbmTy0_1 (i : Nat) : BufTy := match i % 128 with
  | 0 => ⟨S_, .f32⟩
  | 1 => ⟨S1048576, .f32⟩
  | 2 => ⟨S1048576, .f32⟩
  | 3 => ⟨S1048576, .f32⟩
  | 4 => ⟨S1048576x1, .f32⟩
  | 5 => ⟨S1048576x8x2, .f32⟩
  | 6 => ⟨S1048576x8x1, .f32⟩
  | 7 => ⟨S1048576x8, .f32⟩
  | 8 => ⟨S1048576x8, .f32⟩
  | 9 => ⟨S1048576x8, .f32⟩
  | 10 => ⟨S1048576x8x1, .f32⟩
  | 11 => ⟨S1048576x8, .f32⟩
  | 12 => ⟨S1048576x8, .f32⟩
  | 13 => ⟨S1048576x8, .f32⟩
  | 14 => ⟨S1048576x8, .f32⟩
  | 15 => ⟨S1048576x8x1, .f32⟩
  | 16 => ⟨S1048576x8, .f32⟩
  | 17 => ⟨S1048576x8, .f32⟩
  | 18 => ⟨S1048576x8, .f32⟩
  | 19 => ⟨S1048576x8x1, .f32⟩
  | 20 => ⟨S1048576x8, .f32⟩
  | 21 => ⟨S1048576x8, .f32⟩
  | 22 => ⟨S1048576x8, .f32⟩
  | 23 => ⟨S1048576x8, .f32⟩
  | 24 => ⟨S1048576x8x1, .f32⟩
  | 25 => ⟨S1048576x8x1, .f32⟩
  | 26 => ⟨S1048576x8x2, .f32⟩
  | 27 => ⟨S1048576x2x2x2x2, .f32⟩
  | 28 => ⟨S1048576x1, .f32⟩
  | 29 => ⟨S1048576, .f32⟩
  | 30 => ⟨S_, .f32⟩
  | 31 => ⟨S1048576, .f32⟩
  | 32 => ⟨S1048576, .f32⟩
  | 33 => ⟨S1048576, .f32⟩
  | 34 => ⟨S1048576x1, .f32⟩
  | 35 => ⟨S_, .f32⟩
  | 36 => ⟨S1048576, .f32⟩
  | 37 => ⟨S1048576, .f32⟩
  | 38 => ⟨S1048576, .f32⟩
  | 39 => ⟨S1048576x1, .f32⟩
  | 40 => ⟨S1048576x2x2x2x2, .f32⟩
  | 41 => ⟨S1048576x8x2, .f32⟩
  | 42 => ⟨S1048576x8x1, .f32⟩
  | 43 => ⟨S1048576x8, .f32⟩
  | 44 => ⟨S1048576x8, .f32⟩
  | 45 => ⟨S1048576x8, .f32⟩
  | 46 => ⟨S1048576x8x1, .f32⟩
  | 47 => ⟨S1048576x8, .f32⟩
  | 48 => ⟨S1048576x8, .f32⟩
  | 49 => ⟨S1048576x8, .f32⟩
  | 50 => ⟨S1048576x8, .f32⟩
  | 51 => ⟨S1048576x8x1, .f32⟩
  | 52 => ⟨S1048576x8, .f32⟩
  | 53 => ⟨S1048576x8, .f32⟩
  | 54 => ⟨S1048576x8, .f32⟩
  | 55 => ⟨S1048576x8x1, .f32⟩
  | 56 => ⟨S1048576x8, .f32⟩
  | 57 => ⟨S1048576x8, .f32⟩
  | 58 => ⟨S1048576x8, .f32⟩
  | 59 => ⟨S1048576x8, .f32⟩
  | 60 => ⟨S1048576x8x1, .f32⟩
  | 61 => ⟨S1048576x8x1, .f32⟩
  | 62 => ⟨S1048576x8x2, .f32⟩
  | 63 => ⟨S1048576x2x2x2x2, .f32⟩
  | 64 => ⟨S1048576x2x2x2x2, .f32⟩
  | 65 => ⟨S1048576x1, .f32⟩
  | 66 => ⟨S1048576, .f32⟩
  | 67 => ⟨S_, .f32⟩
  | 68 => ⟨S1048576, .f32⟩
  | 69 => ⟨S1048576, .f32⟩
  | 70 => ⟨S1048576, .f32⟩
  | 71 => ⟨S1048576x1, .f32⟩
  | 72 => ⟨S_, .f32⟩
  | 73 => ⟨S1048576, .f32⟩
  | 74 => ⟨S1048576, .f32⟩
  | 75 => ⟨S1048576, .f32⟩
  | 76 => ⟨S1048576x1, .f32⟩
  | 77 => ⟨S1048576x2x2x2x2, .f32⟩
  | 78 => ⟨S1048576x8x2, .f32⟩
  | 79 => ⟨S1048576x8x1, .f32⟩
  | 80 => ⟨S1048576x8, .f32⟩
  | 81 => ⟨S1048576x8, .f32⟩
  | 82 => ⟨S1048576x8, .f32⟩
  | 83 => ⟨S1048576x8x1, .f32⟩
  | 84 => ⟨S1048576x8, .f32⟩
  | 85 => ⟨S1048576x8, .f32⟩
  | 86 => ⟨S1048576x8, .f32⟩
  | 87 => ⟨S1048576x8, .f32⟩
  | 88 => ⟨S1048576x8x1, .f32⟩
  | 89 => ⟨S1048576x8, .f32⟩
  | 90 => ⟨S1048576x8, .f32⟩
  | 91 => ⟨S1048576x8, .f32⟩
  | 92 => ⟨S1048576x8x1, .f32⟩
  | 93 => ⟨S1048576x8, .f32⟩
  | 94 => ⟨S1048576x8, .f32⟩
  | 95 => ⟨S1048576x8, .f32⟩
  | 96 => ⟨S1048576x8, .f32⟩
  | 97 => ⟨S1048576x8x1, .f32⟩
  | 98 => ⟨S1048576x8x1, .f32⟩
  | 99 => ⟨S1048576x8x2, .f32⟩
  | 100 => ⟨S1048576x2x2x2x2, .f32⟩
  | 101 => ⟨S1048576x2x2x2x2, .f32⟩
  | 102 => ⟨S1048576x1, .f32⟩
  | 103 => ⟨S1048576, .f32⟩
  | 104 => ⟨S_, .f32⟩
  | 105 => ⟨S1048576, .f32⟩
  | 106 => ⟨S1048576, .f32⟩
  | 107 => ⟨S1048576, .f32⟩
  | 108 => ⟨S1048576x1, .f32⟩
  | 109 => ⟨S_, .f32⟩
  | 110 => ⟨S1048576, .f32⟩
  | 111 => ⟨S1048576, .f32⟩
  | 112 => ⟨S1048576, .f32⟩
  | 113 => ⟨S1048576x1, .f32⟩
  | 114 => ⟨S1048576x2x2x2x2, .f32⟩
  | 115 => ⟨S1048576x8x2, .f32⟩
  | 116 => ⟨S1048576x8x1, .f32⟩
  | 117 => ⟨S1048576x8, .f32⟩
  | 118 => ⟨S1048576x8, .f32⟩
  | 119 => ⟨S1048576x8, .f32⟩
  | 120 => ⟨S1048576x8x1, .f32⟩
  | 121 => ⟨S1048576x8, .f32⟩
  | 122 => ⟨S1048576x8, .f32⟩
  | 123 => ⟨S1048576x8, .f32⟩
  | 124 => ⟨S1048576x8, .f32⟩
  | 125 => ⟨S1048576x8x1, .f32⟩
  | 126 => ⟨S1048576x8, .f32⟩
  | 127 => ⟨S1048576x8, .f32⟩
  | _ => ⟨S1048576x4, .f32⟩

abbrev hbmTy0_2 (i : Nat) : BufTy := match i % 128 with
  | 0 => ⟨S1048576x8, .f32⟩
  | 1 => ⟨S1048576x8x1, .f32⟩
  | 2 => ⟨S1048576x8, .f32⟩
  | 3 => ⟨S1048576x8, .f32⟩
  | 4 => ⟨S1048576x8, .f32⟩
  | 5 => ⟨S1048576x8, .f32⟩
  | 6 => ⟨S1048576x8x1, .f32⟩
  | 7 => ⟨S1048576x8x1, .f32⟩
  | 8 => ⟨S1048576x8x2, .f32⟩
  | 9 => ⟨S1048576x2x2x2x2, .f32⟩
  | 10 => ⟨S1048576x2x2x2x2, .f32⟩
  | 11 => ⟨S1048576x1, .f32⟩
  | 12 => ⟨S1048576, .f32⟩
  | 13 => ⟨S_, .f32⟩
  | 14 => ⟨S1048576, .f32⟩
  | 15 => ⟨S1048576, .f32⟩
  | 16 => ⟨S1048576, .f32⟩
  | 17 => ⟨S1048576x1, .f32⟩
  | 18 => ⟨S_, .f32⟩
  | 19 => ⟨S1048576, .f32⟩
  | 20 => ⟨S1048576, .f32⟩
  | 21 => ⟨S1048576, .f32⟩
  | 22 => ⟨S1048576x1, .f32⟩
  | 23 => ⟨S1048576x8x2, .f32⟩
  | 24 => ⟨S1048576x8x1, .f32⟩
  | 25 => ⟨S1048576x8, .f32⟩
  | 26 => ⟨S1048576x8, .f32⟩
  | 27 => ⟨S1048576x8, .f32⟩
  | 28 => ⟨S1048576x8x1, .f32⟩
  | 29 => ⟨S1048576x8, .f32⟩
  | 30 => ⟨S1048576x8, .f32⟩
  | 31 => ⟨S1048576x8, .f32⟩
  | 32 => ⟨S1048576x8, .f32⟩
  | 33 => ⟨S1048576x8x1, .f32⟩
  | 34 => ⟨S1048576x8, .f32⟩
  | 35 => ⟨S1048576x8, .f32⟩
  | 36 => ⟨S1048576x8, .f32⟩
  | 37 => ⟨S1048576x8x1, .f32⟩
  | 38 => ⟨S1048576x8, .f32⟩
  | 39 => ⟨S1048576x8, .f32⟩
  | 40 => ⟨S1048576x8, .f32⟩
  | 41 => ⟨S1048576x8, .f32⟩
  | 42 => ⟨S1048576x8x1, .f32⟩
  | 43 => ⟨S1048576x8x1, .f32⟩
  | 44 => ⟨S1048576x8x2, .f32⟩
  | 45 => ⟨S1048576x2x2x2x2, .f32⟩
  | 46 => ⟨S1048576x2x2x2x2, .f32⟩
  | 47 => ⟨S_, .f32⟩
  | 48 => ⟨S1048576x2, .f32⟩
  | 49 => ⟨S1048576x1, .f32⟩
  | 50 => ⟨S1048576, .f32⟩
  | 51 => ⟨S1048576x1, .f32⟩
  | 52 => ⟨S1048576, .f32⟩
  | 53 => ⟨S1048576, .f32⟩
  | 54 => ⟨S_, .f32⟩
  | 55 => ⟨S1048576x2, .f32⟩
  | 56 => ⟨S1048576x1, .f32⟩
  | 57 => ⟨S1048576, .f32⟩
  | 58 => ⟨S1048576x1, .f32⟩
  | 59 => ⟨S1048576, .f32⟩
  | 60 => ⟨S1048576, .f32⟩
  | 61 => ⟨S_, .f32⟩
  | 62 => ⟨S1048576x2, .f32⟩
  | 63 => ⟨S1048576x1, .f32⟩
  | 64 => ⟨S1048576, .f32⟩
  | 65 => ⟨S1048576x1, .f32⟩
  | 66 => ⟨S1048576, .f32⟩
  | 67 => ⟨S1048576, .f32⟩
  | 68 => ⟨S_, .f32⟩
  | 69 => ⟨S1048576x2, .f32⟩
  | 70 => ⟨S1048576x1, .f32⟩
  | 71 => ⟨S1048576, .f32⟩
  | 72 => ⟨S1048576x1, .f32⟩
  | 73 => ⟨S1048576, .f32⟩
  | 74 => ⟨S1048576, .f32⟩
  | 75 => ⟨S1048576x1, .f32⟩
  | 76 => ⟨S1048576x1, .f32⟩
  | 77 => ⟨S1048576x1, .f32⟩
  | 78 => ⟨S1048576x1, .f32⟩
  | 79 => ⟨S1048576x4, .f32⟩
  | 80 => ⟨S1048576x4, .f32⟩
  | _ => ⟨S1048576x4, .f32⟩

abbrev hbmTy (i : Nat) : BufTy := match i / 128 with
  | 0 => hbmTy0_0 i
  | 1 => hbmTy0_1 i
  | 2 => hbmTy0_2 i
  | _ => ⟨S1048576x4, .f32⟩

abbrev bufTy : (tb : Table) → Fin (tcTables nBuf tb) → BufTy
  | .hbm, ⟨i, _⟩ => hbmTy i
  | _, _ => ⟨S1048576x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_cst_3 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_cst_4 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_cst_5 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_cst_6 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_cst_7 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_cst_8 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩
abbrev main_v122 : Ref sig .tc := ⟨.hbm, 135, rfl⟩
abbrev main_v123 : Ref sig .tc := ⟨.hbm, 136, rfl⟩
abbrev main_v124 : Ref sig .tc := ⟨.hbm, 137, rfl⟩
abbrev main_v125 : Ref sig .tc := ⟨.hbm, 138, rfl⟩
abbrev main_v126 : Ref sig .tc := ⟨.hbm, 139, rfl⟩
abbrev main_v127 : Ref sig .tc := ⟨.hbm, 140, rfl⟩
abbrev main_v128 : Ref sig .tc := ⟨.hbm, 141, rfl⟩
abbrev main_v129 : Ref sig .tc := ⟨.hbm, 142, rfl⟩
abbrev main_v130 : Ref sig .tc := ⟨.hbm, 143, rfl⟩
abbrev main_v131 : Ref sig .tc := ⟨.hbm, 144, rfl⟩
abbrev main_v132 : Ref sig .tc := ⟨.hbm, 145, rfl⟩
abbrev main_v133 : Ref sig .tc := ⟨.hbm, 146, rfl⟩
abbrev main_v134 : Ref sig .tc := ⟨.hbm, 147, rfl⟩
abbrev main_v135 : Ref sig .tc := ⟨.hbm, 148, rfl⟩
abbrev main_v136 : Ref sig .tc := ⟨.hbm, 149, rfl⟩
abbrev main_v137 : Ref sig .tc := ⟨.hbm, 150, rfl⟩
abbrev main_v138 : Ref sig .tc := ⟨.hbm, 151, rfl⟩
abbrev main_v139 : Ref sig .tc := ⟨.hbm, 152, rfl⟩
abbrev main_v140 : Ref sig .tc := ⟨.hbm, 153, rfl⟩
abbrev main_v141 : Ref sig .tc := ⟨.hbm, 154, rfl⟩
abbrev main_v142 : Ref sig .tc := ⟨.hbm, 155, rfl⟩
abbrev main_v143 : Ref sig .tc := ⟨.hbm, 156, rfl⟩
abbrev main_v144 : Ref sig .tc := ⟨.hbm, 157, rfl⟩
abbrev main_cst_9 : Ref sig .tc := ⟨.hbm, 158, rfl⟩
abbrev main_v145 : Ref sig .tc := ⟨.hbm, 159, rfl⟩
abbrev main_v146 : Ref sig .tc := ⟨.hbm, 160, rfl⟩
abbrev main_v147 : Ref sig .tc := ⟨.hbm, 161, rfl⟩
abbrev main_v148 : Ref sig .tc := ⟨.hbm, 162, rfl⟩
abbrev main_cst_10 : Ref sig .tc := ⟨.hbm, 163, rfl⟩
abbrev main_v149 : Ref sig .tc := ⟨.hbm, 164, rfl⟩
abbrev main_v150 : Ref sig .tc := ⟨.hbm, 165, rfl⟩
abbrev main_v151 : Ref sig .tc := ⟨.hbm, 166, rfl⟩
abbrev main_v152 : Ref sig .tc := ⟨.hbm, 167, rfl⟩
abbrev main_v153 : Ref sig .tc := ⟨.hbm, 168, rfl⟩
abbrev main_v154 : Ref sig .tc := ⟨.hbm, 169, rfl⟩
abbrev main_v155 : Ref sig .tc := ⟨.hbm, 170, rfl⟩
abbrev main_v156 : Ref sig .tc := ⟨.hbm, 171, rfl⟩
abbrev main_v157 : Ref sig .tc := ⟨.hbm, 172, rfl⟩
abbrev main_v158 : Ref sig .tc := ⟨.hbm, 173, rfl⟩
abbrev main_v159 : Ref sig .tc := ⟨.hbm, 174, rfl⟩
abbrev main_v160 : Ref sig .tc := ⟨.hbm, 175, rfl⟩
abbrev main_v161 : Ref sig .tc := ⟨.hbm, 176, rfl⟩
abbrev main_v162 : Ref sig .tc := ⟨.hbm, 177, rfl⟩
abbrev main_v163 : Ref sig .tc := ⟨.hbm, 178, rfl⟩
abbrev main_v164 : Ref sig .tc := ⟨.hbm, 179, rfl⟩
abbrev main_v165 : Ref sig .tc := ⟨.hbm, 180, rfl⟩
abbrev main_v166 : Ref sig .tc := ⟨.hbm, 181, rfl⟩
abbrev main_v167 : Ref sig .tc := ⟨.hbm, 182, rfl⟩
abbrev main_v168 : Ref sig .tc := ⟨.hbm, 183, rfl⟩
abbrev main_v169 : Ref sig .tc := ⟨.hbm, 184, rfl⟩
abbrev main_v170 : Ref sig .tc := ⟨.hbm, 185, rfl⟩
abbrev main_v171 : Ref sig .tc := ⟨.hbm, 186, rfl⟩
abbrev main_v172 : Ref sig .tc := ⟨.hbm, 187, rfl⟩
abbrev main_v173 : Ref sig .tc := ⟨.hbm, 188, rfl⟩
abbrev main_v174 : Ref sig .tc := ⟨.hbm, 189, rfl⟩
abbrev main_v175 : Ref sig .tc := ⟨.hbm, 190, rfl⟩
abbrev main_v176 : Ref sig .tc := ⟨.hbm, 191, rfl⟩
abbrev main_v177 : Ref sig .tc := ⟨.hbm, 192, rfl⟩
abbrev main_v178 : Ref sig .tc := ⟨.hbm, 193, rfl⟩
abbrev main_v179 : Ref sig .tc := ⟨.hbm, 194, rfl⟩
abbrev main_cst_11 : Ref sig .tc := ⟨.hbm, 195, rfl⟩
abbrev main_v180 : Ref sig .tc := ⟨.hbm, 196, rfl⟩
abbrev main_v181 : Ref sig .tc := ⟨.hbm, 197, rfl⟩
abbrev main_v182 : Ref sig .tc := ⟨.hbm, 198, rfl⟩
abbrev main_v183 : Ref sig .tc := ⟨.hbm, 199, rfl⟩
abbrev main_cst_12 : Ref sig .tc := ⟨.hbm, 200, rfl⟩
abbrev main_v184 : Ref sig .tc := ⟨.hbm, 201, rfl⟩
abbrev main_v185 : Ref sig .tc := ⟨.hbm, 202, rfl⟩
abbrev main_v186 : Ref sig .tc := ⟨.hbm, 203, rfl⟩
abbrev main_v187 : Ref sig .tc := ⟨.hbm, 204, rfl⟩
abbrev main_v188 : Ref sig .tc := ⟨.hbm, 205, rfl⟩
abbrev main_v189 : Ref sig .tc := ⟨.hbm, 206, rfl⟩
abbrev main_v190 : Ref sig .tc := ⟨.hbm, 207, rfl⟩
abbrev main_v191 : Ref sig .tc := ⟨.hbm, 208, rfl⟩
abbrev main_v192 : Ref sig .tc := ⟨.hbm, 209, rfl⟩
abbrev main_v193 : Ref sig .tc := ⟨.hbm, 210, rfl⟩
abbrev main_v194 : Ref sig .tc := ⟨.hbm, 211, rfl⟩
abbrev main_v195 : Ref sig .tc := ⟨.hbm, 212, rfl⟩
abbrev main_v196 : Ref sig .tc := ⟨.hbm, 213, rfl⟩
abbrev main_v197 : Ref sig .tc := ⟨.hbm, 214, rfl⟩
abbrev main_v198 : Ref sig .tc := ⟨.hbm, 215, rfl⟩
abbrev main_v199 : Ref sig .tc := ⟨.hbm, 216, rfl⟩
abbrev main_v200 : Ref sig .tc := ⟨.hbm, 217, rfl⟩
abbrev main_v201 : Ref sig .tc := ⟨.hbm, 218, rfl⟩
abbrev main_v202 : Ref sig .tc := ⟨.hbm, 219, rfl⟩
abbrev main_v203 : Ref sig .tc := ⟨.hbm, 220, rfl⟩
abbrev main_v204 : Ref sig .tc := ⟨.hbm, 221, rfl⟩
abbrev main_v205 : Ref sig .tc := ⟨.hbm, 222, rfl⟩
abbrev main_v206 : Ref sig .tc := ⟨.hbm, 223, rfl⟩
abbrev main_v207 : Ref sig .tc := ⟨.hbm, 224, rfl⟩
abbrev main_v208 : Ref sig .tc := ⟨.hbm, 225, rfl⟩
abbrev main_v209 : Ref sig .tc := ⟨.hbm, 226, rfl⟩
abbrev main_v210 : Ref sig .tc := ⟨.hbm, 227, rfl⟩
abbrev main_v211 : Ref sig .tc := ⟨.hbm, 228, rfl⟩
abbrev main_v212 : Ref sig .tc := ⟨.hbm, 229, rfl⟩
abbrev main_v213 : Ref sig .tc := ⟨.hbm, 230, rfl⟩
abbrev main_v214 : Ref sig .tc := ⟨.hbm, 231, rfl⟩
abbrev main_cst_13 : Ref sig .tc := ⟨.hbm, 232, rfl⟩
abbrev main_v215 : Ref sig .tc := ⟨.hbm, 233, rfl⟩
abbrev main_v216 : Ref sig .tc := ⟨.hbm, 234, rfl⟩
abbrev main_v217 : Ref sig .tc := ⟨.hbm, 235, rfl⟩
abbrev main_v218 : Ref sig .tc := ⟨.hbm, 236, rfl⟩
abbrev main_cst_14 : Ref sig .tc := ⟨.hbm, 237, rfl⟩
abbrev main_v219 : Ref sig .tc := ⟨.hbm, 238, rfl⟩
abbrev main_v220 : Ref sig .tc := ⟨.hbm, 239, rfl⟩
abbrev main_v221 : Ref sig .tc := ⟨.hbm, 240, rfl⟩
abbrev main_v222 : Ref sig .tc := ⟨.hbm, 241, rfl⟩
abbrev main_v223 : Ref sig .tc := ⟨.hbm, 242, rfl⟩
abbrev main_v224 : Ref sig .tc := ⟨.hbm, 243, rfl⟩
abbrev main_v225 : Ref sig .tc := ⟨.hbm, 244, rfl⟩
abbrev main_v226 : Ref sig .tc := ⟨.hbm, 245, rfl⟩
abbrev main_v227 : Ref sig .tc := ⟨.hbm, 246, rfl⟩
abbrev main_v228 : Ref sig .tc := ⟨.hbm, 247, rfl⟩
abbrev main_v229 : Ref sig .tc := ⟨.hbm, 248, rfl⟩
abbrev main_v230 : Ref sig .tc := ⟨.hbm, 249, rfl⟩
abbrev main_v231 : Ref sig .tc := ⟨.hbm, 250, rfl⟩
abbrev main_v232 : Ref sig .tc := ⟨.hbm, 251, rfl⟩
abbrev main_v233 : Ref sig .tc := ⟨.hbm, 252, rfl⟩
abbrev main_v234 : Ref sig .tc := ⟨.hbm, 253, rfl⟩
abbrev main_v235 : Ref sig .tc := ⟨.hbm, 254, rfl⟩
abbrev main_v236 : Ref sig .tc := ⟨.hbm, 255, rfl⟩
abbrev main_v237 : Ref sig .tc := ⟨.hbm, 256, rfl⟩
abbrev main_v238 : Ref sig .tc := ⟨.hbm, 257, rfl⟩
abbrev main_v239 : Ref sig .tc := ⟨.hbm, 258, rfl⟩
abbrev main_v240 : Ref sig .tc := ⟨.hbm, 259, rfl⟩
abbrev main_v241 : Ref sig .tc := ⟨.hbm, 260, rfl⟩
abbrev main_v242 : Ref sig .tc := ⟨.hbm, 261, rfl⟩
abbrev main_v243 : Ref sig .tc := ⟨.hbm, 262, rfl⟩
abbrev main_v244 : Ref sig .tc := ⟨.hbm, 263, rfl⟩
abbrev main_v245 : Ref sig .tc := ⟨.hbm, 264, rfl⟩
abbrev main_v246 : Ref sig .tc := ⟨.hbm, 265, rfl⟩
abbrev main_v247 : Ref sig .tc := ⟨.hbm, 266, rfl⟩
abbrev main_v248 : Ref sig .tc := ⟨.hbm, 267, rfl⟩
abbrev main_v249 : Ref sig .tc := ⟨.hbm, 268, rfl⟩
abbrev main_cst_15 : Ref sig .tc := ⟨.hbm, 269, rfl⟩
abbrev main_v250 : Ref sig .tc := ⟨.hbm, 270, rfl⟩
abbrev main_v251 : Ref sig .tc := ⟨.hbm, 271, rfl⟩
abbrev main_v252 : Ref sig .tc := ⟨.hbm, 272, rfl⟩
abbrev main_v253 : Ref sig .tc := ⟨.hbm, 273, rfl⟩
abbrev main_cst_16 : Ref sig .tc := ⟨.hbm, 274, rfl⟩
abbrev main_v254 : Ref sig .tc := ⟨.hbm, 275, rfl⟩
abbrev main_v255 : Ref sig .tc := ⟨.hbm, 276, rfl⟩
abbrev main_v256 : Ref sig .tc := ⟨.hbm, 277, rfl⟩
abbrev main_v257 : Ref sig .tc := ⟨.hbm, 278, rfl⟩
abbrev main_v258 : Ref sig .tc := ⟨.hbm, 279, rfl⟩
abbrev main_v259 : Ref sig .tc := ⟨.hbm, 280, rfl⟩
abbrev main_v260 : Ref sig .tc := ⟨.hbm, 281, rfl⟩
abbrev main_v261 : Ref sig .tc := ⟨.hbm, 282, rfl⟩
abbrev main_v262 : Ref sig .tc := ⟨.hbm, 283, rfl⟩
abbrev main_v263 : Ref sig .tc := ⟨.hbm, 284, rfl⟩
abbrev main_v264 : Ref sig .tc := ⟨.hbm, 285, rfl⟩
abbrev main_v265 : Ref sig .tc := ⟨.hbm, 286, rfl⟩
abbrev main_v266 : Ref sig .tc := ⟨.hbm, 287, rfl⟩
abbrev main_v267 : Ref sig .tc := ⟨.hbm, 288, rfl⟩
abbrev main_v268 : Ref sig .tc := ⟨.hbm, 289, rfl⟩
abbrev main_v269 : Ref sig .tc := ⟨.hbm, 290, rfl⟩
abbrev main_v270 : Ref sig .tc := ⟨.hbm, 291, rfl⟩
abbrev main_v271 : Ref sig .tc := ⟨.hbm, 292, rfl⟩
abbrev main_v272 : Ref sig .tc := ⟨.hbm, 293, rfl⟩
abbrev main_v273 : Ref sig .tc := ⟨.hbm, 294, rfl⟩
abbrev main_v274 : Ref sig .tc := ⟨.hbm, 295, rfl⟩
abbrev main_v275 : Ref sig .tc := ⟨.hbm, 296, rfl⟩
abbrev main_v276 : Ref sig .tc := ⟨.hbm, 297, rfl⟩
abbrev main_v277 : Ref sig .tc := ⟨.hbm, 298, rfl⟩
abbrev main_v278 : Ref sig .tc := ⟨.hbm, 299, rfl⟩
abbrev main_v279 : Ref sig .tc := ⟨.hbm, 300, rfl⟩
abbrev main_v280 : Ref sig .tc := ⟨.hbm, 301, rfl⟩
abbrev main_v281 : Ref sig .tc := ⟨.hbm, 302, rfl⟩
abbrev main_cst_17 : Ref sig .tc := ⟨.hbm, 303, rfl⟩
abbrev main_v282 : Ref sig .tc := ⟨.hbm, 304, rfl⟩
abbrev main_v283 : Ref sig .tc := ⟨.hbm, 305, rfl⟩
abbrev main_v284 : Ref sig .tc := ⟨.hbm, 306, rfl⟩
abbrev main_v285 : Ref sig .tc := ⟨.hbm, 307, rfl⟩
abbrev main_v286 : Ref sig .tc := ⟨.hbm, 308, rfl⟩
abbrev main_v287 : Ref sig .tc := ⟨.hbm, 309, rfl⟩
abbrev main_cst_18 : Ref sig .tc := ⟨.hbm, 310, rfl⟩
abbrev main_v288 : Ref sig .tc := ⟨.hbm, 311, rfl⟩
abbrev main_v289 : Ref sig .tc := ⟨.hbm, 312, rfl⟩
abbrev main_v290 : Ref sig .tc := ⟨.hbm, 313, rfl⟩
abbrev main_v291 : Ref sig .tc := ⟨.hbm, 314, rfl⟩
abbrev main_v292 : Ref sig .tc := ⟨.hbm, 315, rfl⟩
abbrev main_v293 : Ref sig .tc := ⟨.hbm, 316, rfl⟩
abbrev main_cst_19 : Ref sig .tc := ⟨.hbm, 317, rfl⟩
abbrev main_v294 : Ref sig .tc := ⟨.hbm, 318, rfl⟩
abbrev main_v295 : Ref sig .tc := ⟨.hbm, 319, rfl⟩
abbrev main_v296 : Ref sig .tc := ⟨.hbm, 320, rfl⟩
abbrev main_v297 : Ref sig .tc := ⟨.hbm, 321, rfl⟩
abbrev main_v298 : Ref sig .tc := ⟨.hbm, 322, rfl⟩
abbrev main_v299 : Ref sig .tc := ⟨.hbm, 323, rfl⟩
abbrev main_cst_20 : Ref sig .tc := ⟨.hbm, 324, rfl⟩
abbrev main_v300 : Ref sig .tc := ⟨.hbm, 325, rfl⟩
abbrev main_v301 : Ref sig .tc := ⟨.hbm, 326, rfl⟩
abbrev main_v302 : Ref sig .tc := ⟨.hbm, 327, rfl⟩
abbrev main_v303 : Ref sig .tc := ⟨.hbm, 328, rfl⟩
abbrev main_v304 : Ref sig .tc := ⟨.hbm, 329, rfl⟩
abbrev main_v305 : Ref sig .tc := ⟨.hbm, 330, rfl⟩
abbrev main_v306 : Ref sig .tc := ⟨.hbm, 331, rfl⟩
abbrev main_v307 : Ref sig .tc := ⟨.hbm, 332, rfl⟩
abbrev main_v308 : Ref sig .tc := ⟨.hbm, 333, rfl⟩
abbrev main_v309 : Ref sig .tc := ⟨.hbm, 334, rfl⟩
abbrev main_v310 : Ref sig .tc := ⟨.hbm, 335, rfl⟩
abbrev main_v311 : Ref sig .tc := ⟨.hbm, 336, rfl⟩

abbrev nD : Nat := 1
abbrev τ : Topo := Topo.v7x

variable {F : FTy → Type} [FloatOps F]

class Facts₀ : Prop where
  bcast_S_S1048576x16 : S_.BroadcastsInDim S1048576x16 (![] : Fin 0 → Fin S1048576x16.rank)
  bcast_S_S1 : S_.BroadcastsInDim S1 (![] : Fin 0 → Fin S1.rank)
  bcast_S_S1048576 : S_.BroadcastsInDim S1048576 (![] : Fin 0 → Fin S1048576.rank)
  shapeCasts_S1048576x16_S1048576x2x2x2x2 : S1048576x16.ShapeCasts S1048576x2x2x2x2
  slices_S1048576x4_S1048576x1_0_0 : S1048576x4.Slices ![0, 0] S1048576x1
  shapeCasts_S1048576x1_S1048576 : S1048576x1.ShapeCasts S1048576
  bcast_S1048576_S1048576x1_0 : S1048576.BroadcastsInDim S1048576x1 (![0] : Fin 1 → Fin S1048576x1.rank)
  transposes_S1048576x2x2x2x2_S1048576x2x2x2x2_0_2_3_4_1 : S1048576x2x2x2x2.Transposes [0, 2, 3, 4, 1] S1048576x2x2x2x2
  shapeCasts_S1048576x2x2x2x2_S1048576x8x2 : S1048576x2x2x2x2.ShapeCasts S1048576x8x2
  slices_S1048576x8x2_S1048576x8x1_0_0_0 : S1048576x8x2.Slices ![0, 0, 0] S1048576x8x1
  shapeCasts_S1048576x8x1_S1048576x8 : S1048576x8x1.ShapeCasts S1048576x8
  bcast_S1048576x1_S1048576x8_0_1 : S1048576x1.BroadcastsInDim S1048576x8 (![0, 1] : Fin 2 → Fin S1048576x8.rank)
  slices_S1048576x8x2_S1048576x8x1_0_0_1 : S1048576x8x2.Slices ![0, 0, 1] S1048576x8x1
  bcast_S1048576x8_S1048576x8x1_0_1 : S1048576x8.BroadcastsInDim S1048576x8x1 (![0, 1] : Fin 2 → Fin S1048576x8x1.rank)
  concatenates_S1048576x8x1_S1048576x8x1_S1048576x8x2_d2 : Shape.Concatenates [S1048576x8x1, S1048576x8x1] S1048576x8x2 2
  shapeCasts_S1048576x8x2_S1048576x2x2x2x2 : S1048576x8x2.ShapeCasts S1048576x2x2x2x2
  transposes_S1048576x2x2x2x2_S1048576x2x2x2x2_0_4_1_2_3 : S1048576x2x2x2x2.Transposes [0, 4, 1, 2, 3] S1048576x2x2x2x2
  slices_S1048576x4_S1048576x1_0_1 : S1048576x4.Slices ![0, 1] S1048576x1
  transposes_S1048576x2x2x2x2_S1048576x2x2x2x2_0_1_3_4_2 : S1048576x2x2x2x2.Transposes [0, 1, 3, 4, 2] S1048576x2x2x2x2
  transposes_S1048576x2x2x2x2_S1048576x2x2x2x2_0_1_4_2_3 : S1048576x2x2x2x2.Transposes [0, 1, 4, 2, 3] S1048576x2x2x2x2
  slices_S1048576x4_S1048576x1_0_2 : S1048576x4.Slices ![0, 2] S1048576x1
  transposes_S1048576x2x2x2x2_S1048576x2x2x2x2_0_1_2_4_3 : S1048576x2x2x2x2.Transposes [0, 1, 2, 4, 3] S1048576x2x2x2x2
  slices_S1048576x4_S1048576x1_0_3 : S1048576x4.Slices ![0, 3] S1048576x1
  reducesTo_S1048576x2x2x2x2_S1048576x2_d2_3_4 : S1048576x2x2x2x2.ReducesTo [2, 3, 4] S1048576x2
  h_S_ : 0 < S_.numel
  slices_S1048576x2_S1048576x1_0_0 : S1048576x2.Slices ![0, 0] S1048576x1
  slices_S1048576x2_S1048576x1_0_1 : S1048576x2.Slices ![0, 1] S1048576x1
  reducesTo_S1048576x2x2x2x2_S1048576x2_d1_3_4 : S1048576x2x2x2x2.ReducesTo [1, 3, 4] S1048576x2
  reducesTo_S1048576x2x2x2x2_S1048576x2_d1_2_4 : S1048576x2x2x2x2.ReducesTo [1, 2, 4] S1048576x2
  reducesTo_S1048576x2x2x2x2_S1048576x2_d1_2_3 : S1048576x2x2x2x2.ReducesTo [1, 2, 3] S1048576x2
  concatenates_S1048576x1_S1048576x1_S1048576x1_S1048576x1_S1048576x4_d1 : Shape.Concatenates [S1048576x1, S1048576x1, S1048576x1, S1048576x1] S1048576x4 1
  scatter_S1048576x16_S1_S1048576_0_1_1_0_wf : ScatterDims.WF S1048576x16 S1 S1048576 [0] [1] [1] 0

variable [Facts₀]

def scatter_S1048576x16_S1_S1048576_0_1_1_0 : ScatterDims S1048576x16 S1 S1048576 where
  updateWindowDims := [0]
  insertedWindowDims := [1]
  scatterDimsToOperandDims := [1]
  indexVectorDim := 0
  wf := scatter_S1048576x16_S1_S1048576_0_1_1_0_wf

class Facts : Prop extends Facts₀ where

variable [Facts]
-- ==== Proof.Spec.lean ====
/-
  The specification both programs are compared with, on the extended reals.

  A row of the batch carries two angle vectors `u v : Fin 4 → EReal` (row `b` of `x` and of `y`). A real state of four
  qubits is a function of four bits, `St`; wire 0 is the FIRST bit (weight 8 in the flat index 8·i₁ + 4·i₂ + 2·i₃ + i₄).
  `ry k c s a` is the rotation RY on wire `k`, written with `c = cos (θ/2)` and `s = sin (θ/2)`: on the pair of
  amplitudes that differ only in bit `k` it is `(a₀, a₁) ↦ (c·a₀ − s·a₁, s·a₀ + c·a₁)`, every product with the
  trigonometric factor on the LEFT and the two results formed by one subtraction and one addition — the order both
  programs compute in, so that no law of the extended reals is needed to compare them gate by gate.
  `enc u` applies the four rotations of one encoding, wire 0 first; `amp u v = enc v (enc u init)` is the final state,
  `prob` its squares, `marg p w e` the sum of `p` over the three bits other than `w` with bit `w` held at `e`, and
  `ez u v w = |marg₀ − marg₁|` the absolute expectation of Z on wire `w`. `G x y` is the whole result array.
-/
import Idealize.ShloMosaic.PureOps.Ideal
import Idealize.ShloMosaic.Lib.ValueIdx

noncomputable section

open scoped BigOperators

namespace Cert.Qka

open Idealize.ShloMosaic Idealize.ShloMosaic.ValueIdx

/-- A real four-qubit state: the amplitude at four bits, wire 0 first. -/
abbrev St : Type := Fin 2 → Fin 2 → Fin 2 → Fin 2 → EReal

/-- The three float literals of either program, as the extended reals their words denote (never evaluated). -/
def half : EReal := Ideal.ofBits .f32 0x3F000000#32
def one : EReal := Ideal.ofBits .f32 0x3F800000#32
def zero : EReal := Ideal.ofBits .f32 0x00000000#32

/-- RY on wire 0 (the first bit). -/
def ry0 (c s : EReal) (a : St) : St := fun i1 i2 i3 i4 =>
  if i1 = 0 then c * a 0 i2 i3 i4 - s * a 1 i2 i3 i4 else s * a 0 i2 i3 i4 + c * a 1 i2 i3 i4
/-- RY on wire 1. -/
def ry1 (c s : EReal) (a : St) : St := fun i1 i2 i3 i4 =>
  if i2 = 0 then c * a i1 0 i3 i4 - s * a i1 1 i3 i4 else s * a i1 0 i3 i4 + c * a i1 1 i3 i4
/-- RY on wire 2. -/
def ry2 (c s : EReal) (a : St) : St := fun i1 i2 i3 i4 =>
  if i3 = 0 then c * a i1 i2 0 i4 - s * a i1 i2 1 i4 else s * a i1 i2 0 i4 + c * a i1 i2 1 i4
/-- RY on wire 3 (the last bit). -/
def ry3 (c s : EReal) (a : St) : St := fun i1 i2 i3 i4 =>
  if i4 = 0 then c * a i1 i2 i3 0 - s * a i1 i2 i3 1 else s * a i1 i2 i3 0 + c * a i1 i2 i3 1

theorem ry0_zero (c s : EReal) (a : St) (i2 i3 i4 : Fin 2) : ry0 c s a 0 i2 i3 i4 = c * a 0 i2 i3 i4 - s * a 1 i2 i3 i4 := rfl
theorem ry0_one (c s : EReal) (a : St) (i2 i3 i4 : Fin 2) : ry0 c s a 1 i2 i3 i4 = s * a 0 i2 i3 i4 + c * a 1 i2 i3 i4 := rfl
theorem ry1_zero (c s : EReal) (a : St) (i1 i3 i4 : Fin 2) : ry1 c s a i1 0 i3 i4 = c * a i1 0 i3 i4 - s * a i1 1 i3 i4 := rfl
theorem ry1_one (c s : EReal) (a : St) (i1 i3 i4 : Fin 2) : ry1 c s a i1 1 i3 i4 = s * a i1 0 i3 i4 + c * a i1 1 i3 i4 := rfl
theorem ry2_zero (c s : EReal) (a : St) (i1 i2 i4 : Fin 2) : ry2 c s a i1 i2 0 i4 = c * a i1 i2 0 i4 - s * a i1 i2 1 i4 := rfl
theorem ry2_one (c s : EReal) (a : St) (i1 i2 i4 : Fin 2) : ry2 c s a i1 i2 1 i4 = s * a i1 i2 0 i4 + c * a i1 i2 1 i4 := rfl
theorem ry3_zero (c s : EReal) (a : St) (i1 i2 i3 : Fin 2) : ry3 c s a i1 i2 i3 0 = c * a i1 i2 i3 0 - s * a i1 i2 i3 1 := rfl
theorem ry3_one (c s : EReal) (a : St) (i1 i2 i3 : Fin 2) : ry3 c s a i1 i2 i3 1 = s * a i1 i2 i3 0 + c * a i1 i2 i3 1 := rfl

/-- The state |0000⟩: amplitude `one` at all bits zero, `zero` elsewhere. -/
def init : St := fun i1 i2 i3 i4 => if i1 = 0 ∧ i2 = 0 ∧ i3 = 0 ∧ i4 = 0 then one else zero

/-- The half-angle cosine and sine of an angle, as both programs form them: the product with the literal 0.5 on the right. -/
def ch (t : EReal) : EReal := Ideal.cos (t * half)
def sh (t : EReal) : EReal := Ideal.sin (t * half)

/-- One encoding: RY(uₖ) on wire k, wire 0 first. -/
def enc (u : Fin 4 → EReal) (a : St) : St :=
  ry3 (ch (u 3)) (sh (u 3)) (ry2 (ch (u 2)) (sh (u 2)) (ry1 (ch (u 1)) (sh (u 1)) (ry0 (ch (u 0)) (sh (u 0)) a)))

/-- The final state: the encoding of `u`, then that of `v`, from |0000⟩. -/
def amp (u v : Fin 4 → EReal) : St := enc v (enc u init)

/-- The squared amplitudes. -/
def prob (u v : Fin 4 → EReal) : St := fun i1 i2 i3 i4 => amp u v i1 i2 i3 i4 * amp u v i1 i2 i3 i4

/-- The sum of `p` over the three bits other than bit `w`, bit `w` held at `e`; the sums run with the earlier bit outermost,
    so the eight terms come in the order of the flat index. -/
def marg (p : St) : Fin 4 → Fin 2 → EReal
  | ⟨0, _⟩, e => ∑ i2 : Fin 2, ∑ i3 : Fin 2, ∑ i4 : Fin 2, p e i2 i3 i4
  | ⟨1, _⟩, e => ∑ i1 : Fin 2, ∑ i3 : Fin 2, ∑ i4 : Fin 2, p i1 e i3 i4
  | ⟨2, _⟩, e => ∑ i1 : Fin 2, ∑ i2 : Fin 2, ∑ i4 : Fin 2, p i1 i2 e i4
  | ⟨3, _⟩, e => ∑ i1 : Fin 2, ∑ i2 : Fin 2, ∑ i3 : Fin 2, p i1 i2 i3 e

/-- |⟨Z⟩| on wire `w`: the absolute difference of the two marginals. -/
def ez (u v : Fin 4 → EReal) (w : Fin 4) : EReal :=
  FloatOps.absf (F := Ideal) (φ := .f32) (marg (prob u v) w 0 - marg (prob u v) w 1)

/-- Row `b` of a [1048576, 4] array. -/
def row (x : (⟨2, ![1048576, 4]⟩ : Shape).Idx → EReal) (b : Fin 1048576) : Fin 4 → EReal := fun w => x (ix2 b w)

/-- The result array: entry (b, w) is |⟨Z_w⟩| of the state prepared from rows `b` of `x` and `y`. -/
def G (x y : (⟨2, ![1048576, 4]⟩ : Shape).Idx → EReal) : (⟨2, ![1048576, 4]⟩ : Shape).Idx → EReal :=
  fun j => ez (row x (j 0)) (row y (j 0)) (j 1)

theorem G_apply (x y : (⟨2, ![1048576, 4]⟩ : Shape).Idx → EReal) (b : Fin 1048576) (w : Fin 4) :
    G x y (ix2 b w) = ez (row x b) (row y b) w := rfl

end Cert.Qka

end
-- ==== Proof.KernelCols.lean ====
/-
  The kernel's half-angle factors read at an index.

  The body takes column `o` of a [8192, 4] block, flattens it to [8192] and folds it to the lane-dense [64, 128]: entry
  (r, l) of the folded column is row 128·r + l of the block, column `o` (`col_apply`: a unit-stride slice, and two shape
  casts, each of which keeps the row-major position). The cosine or sine of that entry times the literal 0.5 is then the
  specification's `ch` / `sh` of the angle, for each of the four columns of the `x` block and of the `y` block.
-/
import proofs.«109609_j65481071404174_2_alg».proof.Proof.Spec
import proofs.«109609_j65481071404174_2_alg».proof.Proof.Gen.KernelIdeal.Skeleton
import Idealize.ShloMosaic.Lib.Pipeline.Value
import Idealize.ShloMosaic.Lib.ValueIdx

noncomputable section

namespace Cert.Qka.Kern

open Cert.KernelIdeal Cert.KernelIdeal.Gen Idealize.ShloMosaic Idealize.ShloMosaic.ValueIdx

/-- Row 128·r + l of a block of 8192 rows. -/
abbrev rowOf (r : Fin 64) (l : Fin 128) : Fin 8192 := ⟨128 * r.val + l.val, by have := r.isLt; have := l.isLt; omega⟩

/-- Column `o` of a block, flattened and folded to [64, 128], read at (r, l): the block at (128·r + l, o). -/
theorem col_apply (v0 : Vec Ideal S8192x4 .f32) (o : Nat) (ho : o < 4) (h : S8192x4.Slices ![0, o] S8192x1)
    (r : Fin 64) (l : Fin 128) :
    shapeCast S64x128 (shapeCast S8192 (extractStridedSlice S8192x1 ![0, o] v0 h) Facts₀.shapeCasts_S8192x1_S8192)
        Facts₀.shapeCasts_S8192_S64x128 (ix2 r l)
      = v0 (ix2 (rowOf r l) ⟨o, ho⟩) := by
  rw [shapeCast_apply _ Facts₀.shapeCasts_S8192_S64x128 (ix2 r l) (ix1 (rowOf r l))
        (by rw [Shape.rowMajor_val_one, Shape.rowMajor_val_two]; show 128 * r.val + l.val = r.val * 128 + l.val; omega),
      shapeCast_apply _ Facts₀.shapeCasts_S8192x1_S8192 (ix1 (rowOf r l)) (ix2 (rowOf r l) (0 : Fin 1))
        (by rw [Shape.rowMajor_val_one, Shape.rowMajor_val_two]; show (128 * r.val + l.val) * 1 + 0 = 128 * r.val + l.val; omega),
      extractStridedSlice_apply ![0, o] v0 h (ix2 (rowOf r l) (0 : Fin 1)) (ix2 (rowOf r l) ⟨o, ho⟩)
        (by intro a; match a with | ⟨0, _⟩ => (show 128 * r.val + l.val = 0 + (128 * r.val + l.val); omega) | ⟨1, _⟩ => (show o = o + 0; omega))]

/-! ## The sixteen half-angle factors

  Payloads 1–4 and 5–7, 9 are the cosines and sines of the `x` block's four columns; 10–13 and 14–17 those of the `y` block's. -/

theorem pay1_apply (v : Vec Ideal S8192x4 .f32) (r : Fin 64) (l : Fin 128) :
    k0_pay1 v (ix2 r l) = ch (v (ix2 (rowOf r l) (0 : Fin 4))) :=
  congrArg (fun t : EReal => Ideal.cos (t * half)) (col_apply v 0 (by omega) Facts₀.slices_S8192x4_o0_0_S8192x1 r l)
theorem pay2_apply (v : Vec Ideal S8192x4 .f32) (r : Fin 64) (l : Fin 128) :
    k0_pay2 v (ix2 r l) = ch (v (ix2 (rowOf r l) (1 : Fin 4))) :=
  congrArg (fun t : EReal => Ideal.cos (t * half)) (col_apply v 1 (by omega) Facts₀.slices_S8192x4_o0_1_S8192x1 r l)
theorem pay3_apply (v : Vec Ideal S8192x4 .f32) (r : Fin 64) (l : Fin 128) :
    k0_pay3 v (ix2 r l) = ch (v (ix2 (rowOf r l) (2 : Fin 4))) :=
  congrArg (fun t : EReal => Ideal.cos (t * half)) (col_apply v 2 (by omega) Facts₀.slices_S8192x4_o0_2_S8192x1 r l)
theorem pay4_apply (v : Vec Ideal S8192x4 .f32) (r : Fin 64) (l : Fin 128) :
    k0_pay4 v (ix2 r l) = ch (v (ix2 (rowOf r l) (3 : Fin 4))) :=
  congrArg (fun t : EReal => Ideal.cos (t * half)) (col_apply v 3 (by omega) Facts₀.slices_S8192x4_o0_3_S8192x1 r l)
theorem pay5_apply (v : Vec Ideal S8192x4 .f32) (r : Fin 64) (l : Fin 128) :
    k0_pay5 v (ix2 r l) = sh (v (ix2 (rowOf r l) (0 : Fin 4))) :=
  congrArg (fun t : EReal => Ideal.sin (t * half)) (col_apply v 0 (by omega) Facts₀.slices_S8192x4_o0_0_S8192x1 r l)
theorem pay6_apply (v : Vec Ideal S8192x4 .f32) (r : Fin 64) (l : Fin 128) :
    k0_pay6 v (ix2 r l) = sh (v (ix2 (rowOf r l) (1 : Fin 4))) :=
  congrArg (fun t : EReal => Ideal.sin (t * half)) (col_apply v 1 (by omega) Facts₀.slices_S8192x4_o0_1_S8192x1 r l)
theorem pay7_apply (v : Vec Ideal S8192x4 .f32) (r : Fin 64) (l : Fin 128) :
    k0_pay7 v (ix2 r l) = sh (v (ix2 (rowOf r l) (2 : Fin 4))) :=
  congrArg (fun t : EReal => Ideal.sin (t * half)) (col_apply v 2 (by omega) Facts₀.slices_S8192x4_o0_2_S8192x1 r l)
theorem pay10_apply (v : Vec Ideal S8192x4 .f32) (r : Fin 64) (l : Fin 128) :
    k0_pay10 v (ix2 r l) = ch (v (ix2 (rowOf r l) (0 : Fin 4))) :=
  congrArg (fun t : EReal => Ideal.cos (t * half)) (col_apply v 0 (by omega) Facts₀.slices_S8192x4_o0_0_S8192x1 r l)
theorem pay11_apply (v : Vec Ideal S8192x4 .f32) (r : Fin 64) (l : Fin 128) :
    k0_pay11 v (ix2 r l) = ch (v (ix2 (rowOf r l) (1 : Fin 4))) :=
  congrArg (fun t : EReal => Ideal.cos (t * half)) (col_apply v 1 (by omega) Facts₀.slices_S8192x4_o0_1_S8192x1 r l)
theorem pay12_apply (v : Vec Ideal S8192x4 .f32) (r : Fin 64) (l : Fin 128) :
    k0_pay12 v (ix2 r l) = ch (v (ix2 (rowOf r l) (2 : Fin 4))) :=
  congrArg (fun t : EReal => Ideal.cos (t * half)) (col_apply v 2 (by omega) Facts₀.slices_S8192x4_o0_2_S8192x1 r l)
theorem pay13_apply (v : Vec Ideal S8192x4 .f32) (r : Fin 64) (l : Fin 128) :
    k0_pay13 v (ix2 r l) = ch (v (ix2 (rowOf r l) (3 : Fin 4))) :=
  congrArg (fun t : EReal => Ideal.cos (t * half)) (col_apply v 3 (by omega) Facts₀.slices_S8192x4_o0_3_S8192x1 r l)
theorem pay14_apply (v : Vec Ideal S8192x4 .f32) (r : Fin 64) (l : Fin 128) :
    k0_pay14 v (ix2 r l) = sh (v (ix2 (rowOf r l) (0 : Fin 4))) :=
  congrArg (fun t : EReal => Ideal.sin (t * half)) (col_apply v 0 (by omega) Facts₀.slices_S8192x4_o0_0_S8192x1 r l)
theorem pay15_apply (v : Vec Ideal S8192x4 .f32) (r : Fin 64) (l : Fin 128) :
    k0_pay15 v (ix2 r l) = sh (v (ix2 (rowOf r l) (1 : Fin 4))) :=
  congrArg (fun t : EReal => Ideal.sin (t * half)) (col_apply v 1 (by omega) Facts₀.slices_S8192x4_o0_1_S8192x1 r l)
theorem pay16_apply (v : Vec Ideal S8192x4 .f32) (r : Fin 64) (l : Fin 128) :
    k0_pay16 v (ix2 r l) = sh (v (ix2 (rowOf r l) (2 : Fin 4))) :=
  congrArg (fun t : EReal => Ideal.sin (t * half)) (col_apply v 2 (by omega) Facts₀.slices_S8192x4_o0_2_S8192x1 r l)
theorem pay17_apply (v : Vec Ideal S8192x4 .f32) (r : Fin 64) (l : Fin 128) :
    k0_pay17 v (ix2 r l) = sh (v (ix2 (rowOf r l) (3 : Fin 4))) :=
  congrArg (fun t : EReal => Ideal.sin (t * half)) (col_apply v 3 (by omega) Facts₀.slices_S8192x4_o0_3_S8192x1 r l)
theorem pay9_apply (v : Vec Ideal S8192x4 .f32) (r : Fin 64) (l : Fin 128) :
    k0_pay9 (k0_pay8 v) (Scalar.ofBits .f32 0x3F000000#32) (ix2 r l) = sh (v (ix2 (rowOf r l) (3 : Fin 4))) :=
  congrArg (fun t : EReal => Ideal.sin (t * half)) (col_apply v 3 (by omega) Facts₀.slices_S8192x4_o0_3_S8192x1 r l)

end Cert.Qka.Kern

end
-- ==== Proof.KernelTail.lean ====
/-
  The kernel's last steps read at an index.

  Each of the four results is computed lane-dense, as a [64, 128] value; it is flattened to [8192], made a column
  [8192, 1], and the four columns are set side by side. Entry (128·r + l, w) of the stored block is therefore result `w`
  at (r, l) (`colOut_apply`: two shape casts keep the row-major position; `stack4_apply`: column `w` of a four-column
  concatenation is its piece `w`). Result `w` is |m₀ − m₁|, where m₀ adds the sixteen squares `a₀ … a₁₅` over the flat
  indices whose bit of weight 8 ≫ w is clear and m₁ over those where it is set, each as a left fold in increasing index
  (`stored_apply`, over any sixteen squares).
-/
import proofs.«109609_j65481071404174_2_alg».proof.Proof.KernelCols

noncomputable section

namespace Cert.Qka.Kern

open Cert.KernelIdeal Cert.KernelIdeal.Gen Idealize.ShloMosaic Idealize.ShloMosaic.ValueIdx

/-- A [64, 128] value flattened to [8192], read at row 128·r + l: the value at (r, l). -/
theorem flat_apply (v : FVec Ideal S64x128 .f32) (r : Fin 64) (l : Fin 128) :
    shapeCast S8192 v Facts₀.shapeCasts_S64x128_S8192 (ix1 (rowOf r l)) = v (ix2 r l) :=
  shapeCast_apply v Facts₀.shapeCasts_S64x128_S8192 (ix1 (rowOf r l)) (ix2 r l)
    (by rw [Shape.rowMajor_val_one, Shape.rowMajor_val_two]; show r.val * 128 + l.val = 128 * r.val + l.val; omega)

/-- A flat [8192] value made a column [8192, 1], read at (p, 0): the value at p. -/
theorem column_apply (v : FVec Ideal S8192 .f32) (p : Fin 8192) :
    shapeCast S8192x1 v Facts₀.shapeCasts_S8192_S8192x1 (ix2 p (0 : Fin 1)) = v (ix1 p) :=
  shapeCast_apply v Facts₀.shapeCasts_S8192_S8192x1 (ix2 p (0 : Fin 1)) (ix1 p)
    (by rw [Shape.rowMajor_val_one, Shape.rowMajor_val_two]; show p.val = p.val * 1 + 0; omega)

/-- Off the concatenation axis a column's index and the block's agree. -/
theorem off_axis (p : Fin 8192) (w : Fin 4) (b : Fin S8192x1.rank) (hb : b.cast (rfl : S8192x1.rank = S8192x4.rank) ≠ (1 : Fin 2)) :
    ((ix2 p (0 : Fin 1) : S8192x1.Idx) b).val = ((ix2 p w : S8192x4.Idx) (b.cast rfl)).val := by
  match b with
  | ⟨0, _⟩ => rfl
  | ⟨1, _⟩ => exact absurd rfl hb

/-- Four columns side by side, read at (p, w): column `w` at (p, 0). -/
theorem stack4_apply (c0 c1 c2 c3 : FVec Ideal S8192x1 .f32) (p : Fin 8192) (w : Fin 4) :
    concatenate S8192x4 1 [⟨S8192x1, c0⟩, ⟨S8192x1, c1⟩, ⟨S8192x1, c2⟩, ⟨S8192x1, c3⟩]
        Facts₀.concatenates_S8192x1_S8192x1_S8192x1_S8192x1_S8192x4_d1 (ix2 p w)
      = (match w with | ⟨0, _⟩ => c0 | ⟨1, _⟩ => c1 | ⟨2, _⟩ => c2 | ⟨3, _⟩ => c3) (ix2 p (0 : Fin 1)) := by
  match w with
  | ⟨0, h⟩ => exact concatenate_apply_piece (t := S8192x4) (α := Ideal .f32) (1 : Fin 2) [⟨S8192x1, c0⟩, ⟨S8192x1, c1⟩, ⟨S8192x1, c2⟩, ⟨S8192x1, c3⟩] Facts₀.concatenates_S8192x1_S8192x1_S8192x1_S8192x1_S8192x4_d1 (ix2 p ⟨0, h⟩) 0 (by show (0 : Nat) < 4; omega) S8192x1 c0 rfl rfl 0 rfl (ix2 p (0 : Fin 1)) (off_axis p ⟨0, h⟩) rfl
  | ⟨1, h⟩ => exact concatenate_apply_piece (t := S8192x4) (α := Ideal .f32) (1 : Fin 2) [⟨S8192x1, c0⟩, ⟨S8192x1, c1⟩, ⟨S8192x1, c2⟩, ⟨S8192x1, c3⟩] Facts₀.concatenates_S8192x1_S8192x1_S8192x1_S8192x1_S8192x4_d1 (ix2 p ⟨1, h⟩) 1 (by show (1 : Nat) < 4; omega) S8192x1 c1 rfl rfl 1 rfl (ix2 p (0 : Fin 1)) (off_axis p ⟨1, h⟩) rfl
  | ⟨2, h⟩ => exact concatenate_apply_piece (t := S8192x4) (α := Ideal .f32) (1 : Fin 2) [⟨S8192x1, c0⟩, ⟨S8192x1, c1⟩, ⟨S8192x1, c2⟩, ⟨S8192x1, c3⟩] Facts₀.concatenates_S8192x1_S8192x1_S8192x1_S8192x1_S8192x4_d1 (ix2 p ⟨2, h⟩) 2 (by show (2 : Nat) < 4; omega) S8192x1 c2 rfl rfl 2 rfl (ix2 p (0 : Fin 1)) (off_axis p ⟨2, h⟩) rfl
  | ⟨3, h⟩ => exact concatenate_apply_piece (t := S8192x4) (α := Ideal .f32) (1 : Fin 2) [⟨S8192x1, c0⟩, ⟨S8192x1, c1⟩, ⟨S8192x1, c2⟩, ⟨S8192x1, c3⟩] Facts₀.concatenates_S8192x1_S8192x1_S8192x1_S8192x1_S8192x4_d1 (ix2 p ⟨3, h⟩) 3 (by show (3 : Nat) < 4; omega) S8192x1 c3 rfl rfl 3 rfl (ix2 p (0 : Fin 1)) (off_axis p ⟨3, h⟩) rfl

/-- The stored block at (128·r + l, w), for w = 1, 2, 3, over any sixteen squares `a₀ … a₁₅` and any first column. -/
theorem stored_apply (a0 a1 a2 a3 a4 a5 a6 a7 a8 a9 a10 a11 a12 a13 a14 a15 : FVec Ideal S64x128 .f32) (v516 : FVec Ideal S8192 .f32) (r : Fin 64) (l : Fin 128) :
    k0_pay156 a0 a1 a2 a3 a4 a5 a6 a7 a8 a9 a10 a11 a12 a13 a14 a15 v516 (ix2 (rowOf r l) (0 : Fin 4)) = v516 (ix1 (rowOf r l))
    ∧ k0_pay156 a0 a1 a2 a3 a4 a5 a6 a7 a8 a9 a10 a11 a12 a13 a14 a15 v516 (ix2 (rowOf r l) (1 : Fin 4)) = FloatOps.absf (F := Ideal) (φ := .f32) ((((((((a0 (ix2 r l) + a1 (ix2 r l)) + a2 (ix2 r l)) + a3 (ix2 r l)) + a8 (ix2 r l)) + a9 (ix2 r l)) + a10 (ix2 r l)) + a11 (ix2 r l)) - (((((((a4 (ix2 r l) + a5 (ix2 r l)) + a6 (ix2 r l)) + a7 (ix2 r l)) + a12 (ix2 r l)) + a13 (ix2 r l)) + a14 (ix2 r l)) + a15 (ix2 r l)))
    ∧ k0_pay156 a0 a1 a2 a3 a4 a5 a6 a7 a8 a9 a10 a11 a12 a13 a14 a15 v516 (ix2 (rowOf r l) (2 : Fin 4)) = FloatOps.absf (F := Ideal) (φ := .f32) ((((((((a0 (ix2 r l) + a1 (ix2 r l)) + a4 (ix2 r l)) + a5 (ix2 r l)) + a8 (ix2 r l)) + a9 (ix2 r l)) + a12 (ix2 r l)) + a13 (ix2 r l)) - (((((((a2 (ix2 r l) + a3 (ix2 r l)) + a6 (ix2 r l)) + a7 (ix2 r l)) + a10 (ix2 r l)) + a11 (ix2 r l)) + a14 (ix2 r l)) + a15 (ix2 r l)))
    ∧ k0_pay156 a0 a1 a2 a3 a4 a5 a6 a7 a8 a9 a10 a11 a12 a13 a14 a15 v516 (ix2 (rowOf r l) (3 : Fin 4)) = FloatOps.absf (F := Ideal) (φ := .f32) ((((((((a0 (ix2 r l) + a2 (ix2 r l)) + a4 (ix2 r l)) + a6 (ix2 r l)) + a8 (ix2 r l)) + a10 (ix2 r l)) + a12 (ix2 r l)) + a14 (ix2 r l)) - (((((((a1 (ix2 r l) + a3 (ix2 r l)) + a5 (ix2 r l)) + a7 (ix2 r l)) + a9 (ix2 r l)) + a11 (ix2 r l)) + a13 (ix2 r l)) + a15 (ix2 r l))) := by
  unfold k0_pay156
  refine ⟨?_, ?_, ?_, ?_⟩
  · rw [stack4_apply]; exact column_apply _ _
  · rw [stack4_apply]; exact (column_apply _ _).trans (flat_apply _ r l)
  · rw [stack4_apply]; exact (column_apply _ _).trans (flat_apply _ r l)
  · rw [stack4_apply]; exact (column_apply _ _).trans (flat_apply _ r l)

end Cert.Qka.Kern

end
-- ==== Proof.KernelBody.lean ====
/-
  The kernel's stored block is the specification, entry by entry.

  At (128·r + l, w) the stored block is result `w` at (r, l) (`stored_apply`), an absolute difference of two left folds of
  the sixteen squared amplitudes. Every operation between the half-angle factors and those sums is pointwise on [64, 128]
  values, so at (r, l) the body computes, on the sixteen scalars `ch` / `sh` of the row's eight angles, exactly the products,
  differences and sums the specification's `ry` chain spells out: the two sides unfold to one and the same expression, up
  to the grouping of the eight-term sums (associativity of + alone).
-/
import proofs.«109609_j65481071404174_2_alg».proof.Proof.KernelTail
import proofs.«109609_j65481071404174_2_alg».proof.Proof.FrameKernelIdeal

set_option maxRecDepth 16384

noncomputable section

namespace Cert.Qka.Kern

open Cert.KernelIdeal Cert.KernelIdeal.Gen Cert.KernelIdeal.GenP Idealize.ShloMosaic Idealize.ShloMosaic.ValueIdx

theorem hz : (![0, 0] : Fin 2 → Nat) = fun _ => 0 := funext fun a => by fin_cases a <;> rfl

/-- The absolute value of a vector, read at an index. -/
theorem absf_apply (v : FVec Ideal S64x128 .f32) (i : S64x128.Idx) : absf v i = FloatOps.absf (F := Ideal) (φ := .f32) (v i) := rfl

/-- The body's two splat literals are the specification's `one` and `zero`. -/
theorem lit_one : (Scalar.ofBits .f32 0x3F800000#32 : Ideal .f32) = one := rfl
theorem lit_zero : (Scalar.ofBits .f32 0x00000000#32 : Ideal .f32) = zero := rfl

set_option maxHeartbeats 4000000 in
/-- Entry (128·r + l, w) of the block the body stores, from the two input blocks: |⟨Z_w⟩| of the state prepared from
    row 128·r + l of the `x` block and of the `y` block. -/
theorem body_apply (x0 x1 : Vec Ideal S8192x4 .f32) (r : Fin 64) (l : Fin 128) (w : Fin 4) :
    out0_2 x0 x1 (ix2 (rowOf r l) w)
      = ez (fun o => x0 (ix2 (rowOf r l) o)) (fun o => x1 (ix2 (rowOf r l) o)) w := by
  unfold out0_2
  rw [View.canon_unit_zero hz]
  simp only [View.ld_unit_zero (S := S8192x4) hz]
  match w with
  | ⟨0, _⟩ =>
    refine (stored_apply _ _ _ _ _ _ _ _ _ _ _ _ _ _ _ _ _ r l).1.trans ?_
    unfold k0_pay155
    rw [flat_apply]
    simp (config := {decide := true}) only [k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154,
      pay1_apply, pay2_apply, pay3_apply, pay4_apply, pay5_apply, pay6_apply, pay7_apply, pay9_apply, pay10_apply, pay11_apply, pay12_apply, pay13_apply, pay14_apply, pay15_apply, pay16_apply, pay17_apply,
      absf_apply, mulf_apply, addf_apply, subf_apply, broadcast_apply, lit_one, lit_zero,
      ez, marg, prob, amp, enc, init, ↓reduceIte, if_true, if_false, Fin.sum_univ_two,
      ry0_zero, ry0_one, ry1_zero, ry1_one, ry2_zero, ry2_one, ry3_zero, ry3_one, add_assoc]
  | ⟨1, _⟩ =>
    refine (stored_apply _ _ _ _ _ _ _ _ _ _ _ _ _ _ _ _ _ r l).2.1.trans ?_
    simp (config := {decide := true}) only [k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154,
      pay1_apply, pay2_apply, pay3_apply, pay4_apply, pay5_apply, pay6_apply, pay7_apply, pay9_apply, pay10_apply, pay11_apply, pay12_apply, pay13_apply, pay14_apply, pay15_apply, pay16_apply, pay17_apply,
      absf_apply, mulf_apply, addf_apply, subf_apply, broadcast_apply, lit_one, lit_zero,
      ez, marg, prob, amp, enc, init, ↓reduceIte, if_true, if_false, Fin.sum_univ_two,
      ry0_zero, ry0_one, ry1_zero, ry1_one, ry2_zero, ry2_one, ry3_zero, ry3_one, add_assoc]
  | ⟨2, _⟩ =>
    refine (stored_apply _ _ _ _ _ _ _ _ _ _ _ _ _ _ _ _ _ r l).2.2.1.trans ?_
    simp (config := {decide := true}) only [k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154,
      pay1_apply, pay2_apply, pay3_apply, pay4_apply, pay5_apply, pay6_apply, pay7_apply, pay9_apply, pay10_apply, pay11_apply, pay12_apply, pay13_apply, pay14_apply, pay15_apply, pay16_apply, pay17_apply,
      absf_apply, mulf_apply, addf_apply, subf_apply, broadcast_apply, lit_one, lit_zero,
      ez, marg, prob, amp, enc, init, ↓reduceIte, if_true, if_false, Fin.sum_univ_two,
      ry0_zero, ry0_one, ry1_zero, ry1_one, ry2_zero, ry2_one, ry3_zero, ry3_one, add_assoc]
  | ⟨3, _⟩ =>
    refine (stored_apply _ _ _ _ _ _ _ _ _ _ _ _ _ _ _ _ _ r l).2.2.2.trans ?_
    simp (config := {decide := true}) only [k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154,
      pay1_apply, pay2_apply, pay3_apply, pay4_apply, pay5_apply, pay6_apply, pay7_apply, pay9_apply, pay10_apply, pay11_apply, pay12_apply, pay13_apply, pay14_apply, pay15_apply, pay16_apply, pay17_apply,
      absf_apply, mulf_apply, addf_apply, subf_apply, broadcast_apply, lit_one, lit_zero,
      ez, marg, prob, amp, enc, init, ↓reduceIte, if_true, if_false, Fin.sum_univ_two,
      ry0_zero, ry0_one, ry1_zero, ry1_one, ry2_zero, ry2_one, ry3_zero, ry3_one, add_assoc]

end Cert.Qka.Kern

end
-- ==== Proof.KernelValue.lean ====
/-
  The kernel's result array is the specification.

  Grid point `t` of the 128 stages rows [8192·t, 8192·t + 8192) of `x`, of `y` and of the result, all four columns (the three
  index maps send `t` to block (t, 0): `idx_facts`, decided over the grid). What it writes back is, entry by entry, the
  specification of the rows it read (`body_apply`), and a block's row 128·r + l is the array's row 8192·t + 128·r + l for
  the inputs and the output alike: so point `t` writes block `t` of `G x y` (`flushed_eq`). The 128 blocks tile the array — row `i`
  lies in block `i / 8192` (`cover`) — hence the array ends as `G x y`, and the frame run, re-posted, says so (`run`).
-/
import proofs.«109609_j65481071404174_2_alg».proof.Proof.KernelBody
import proofs.«109609_j65481071404174_2_alg».proof.Proof.ValueKernelIdeal

set_option maxRecDepth 16384

noncomputable section

namespace Cert.Qka.Kern

open Cert.KernelIdeal Cert.KernelIdeal.Gen Cert.KernelIdeal.GenP Idealize.ShloMosaic Idealize.ShloMosaic.TcCoe
open Idealize.ShloMosaic.ValueIdx Idealize.SL.Sem
open Idealize.ShloMosaic.Pipeline (Dat)

variable (m : (ℓ : Loc nD τ sig) → Buf (Elt Ideal) ℓ) (ρ : Dev nD → PrngReg)

/-- The three index maps over the grid: point `t` is block (t, 0) of each array. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- Every row of a block of 8192 rows is 128·r + l for one (r, l). -/
theorem exists_rowOf (p : Fin 8192) : ∃ (r : Fin 64) (l : Fin 128), p = rowOf r l :=
  ⟨⟨p.val / 128, by have := p.isLt; omega⟩, ⟨p.val % 128, Nat.mod_lt _ (by omega)⟩, Fin.ext (by show p.val = 128 * (p.val / 128) + p.val % 128; omega)⟩

/-- What point `t` writes back is block `t` of `G` of the argument arrays as the region finds them. -/
theorem flushed_eq (c : Dev nD) (t : Fin cfg0.N) :
    (dats m 0 c).flushed 2 t = ((cfg0.win 2).blk t).view.read (Elt Ideal) (G (V m c main_arg0) (V m c main_arg1)) := by
  show (cfg0.win 2).cut (grid0.coords t) ((dats m 0 c).after 2 t) = _
  rw [after0_2]
  obtain ⟨e00, e01, e10, e11, e20, e21⟩ := idx_facts t
  funext y
  obtain ⟨p, w, rfl⟩ : ∃ (p : Fin 8192) (w : Fin 4), y = ix2 p w := ⟨y 0, y 1, eq_ix2 y⟩
  obtain ⟨r, l, rfl⟩ := exists_rowOf p
  refine (body_apply (iblk m c 0 t) (iblk m c 1 t) r l w).trans ?_
  show ez (fun o => V m c main_arg0 (((cfg0.win 0).blk t).view.emb (ix2 (rowOf r l) o)))
        (fun o => V m c main_arg1 (((cfg0.win 1).blk t).view.emb (ix2 (rowOf r l) o))) w
      = ez (row (V m c main_arg0) ((((cfg0.win 2).blk t).view.emb (ix2 (rowOf r l) w)) 0))
          (row (V m c main_arg1) ((((cfg0.win 2).blk t).view.emb (ix2 (rowOf r l) w)) 0))
          ((((cfg0.win 2).blk t).view.emb (ix2 (rowOf r l) w)) 1)
  have h0 : ∀ o : Fin 4, ((cfg0.win 0).blk t).view.emb (ix2 (rowOf r l) o)
      = ix2 ((((cfg0.win 2).blk t).view.emb (ix2 (rowOf r l) w)) 0) o := by
    intro o; funext a; apply Fin.ext
    match a with
    | ⟨0, _⟩ => show win0_0.index t (0 : Fin 2) * 8192 + 1 * (128 * r.val + l.val) = win0_2.index t (0 : Fin 2) * 8192 + 1 * (128 * r.val + l.val); omega
    | ⟨1, _⟩ => show win0_0.index t (1 : Fin 2) * 4 + 1 * o.val = o.val; omega
  have h1 : ∀ o : Fin 4, ((cfg0.win 1).blk t).view.emb (ix2 (rowOf r l) o)
      = ix2 ((((cfg0.win 2).blk t).view.emb (ix2 (rowOf r l) w)) 0) o := by
    intro o; funext a; apply Fin.ext
    match a with
    | ⟨0, _⟩ => show win0_1.index t (0 : Fin 2) * 8192 + 1 * (128 * r.val + l.val) = win0_2.index t (0 : Fin 2) * 8192 + 1 * (128 * r.val + l.val); omega
    | ⟨1, _⟩ => show win0_1.index t (1 : Fin 2) * 4 + 1 * o.val = o.val; omega
  have h2 : (((cfg0.win 2).blk t).view.emb (ix2 (rowOf r l) w)) 1 = w :=
    Fin.ext (by show win0_2.index t (1 : Fin 2) * 4 + 1 * w.val = w.val; omega)
  simp only [h0, h1, h2]
  rfl

/-- An index of the array is in point `t`'s block iff each coordinate is in the block's range on its axis. -/
theorem mem_blk (t : Fin cfg0.N) (i : S1048576x4.Idx) :
    i ∈ ((cfg0.win 2).blk t).view.set ↔ ∀ a : Fin 2, win0_2.index t a * S8192x4.size a ≤ (i a).val ∧ (i a).val < win0_2.index t a * S8192x4.size a + S8192x4.size a := by
  show i ∈ ((View.whole main_v0).slice (win0_2.rect t)).set ↔ _
  rw [View.set_slice_whole, Rect.mem_set_unit]
  exact Iff.rfl

/-- The blocks tile the array: row `i` lies in block `i / 8192`. -/
theorem cover (i : S1048576x4.Idx) :
    ∃ t : Fin cfg0.N, (cfg0.win 2).flush t = true ∧ i ∈ ((cfg0.win 2).blk t).view.set := by
  have hi0 : (i 0).val < 1048576 := (i 0).isLt
  have hi1 : (i 1).val < 4 := (i 1).isLt
  have hN : (i 0).val / 8192 < cfg0.N := by show (i 0).val / 8192 < 128; omega
  obtain ⟨_, _, _, _, e20, e21⟩ := idx_facts ⟨(i 0).val / 8192, hN⟩
  refine ⟨⟨(i 0).val / 8192, hN⟩, flush0_2 _, ?_⟩
  rw [mem_blk]
  intro a
  match a with
  | ⟨0, _⟩ =>
    show win0_2.index ⟨(i 0).val / 8192, hN⟩ (0 : Fin 2) * 8192 ≤ (i 0).val ∧ (i 0).val < win0_2.index ⟨(i 0).val / 8192, hN⟩ (0 : Fin 2) * 8192 + 8192
    rw [e20]; show (i 0).val / 8192 * 8192 ≤ (i 0).val ∧ (i 0).val < (i 0).val / 8192 * 8192 + 8192; omega
  | ⟨1, _⟩ =>
    show win0_2.index ⟨(i 0).val / 8192, hN⟩ (1 : Fin 2) * 4 ≤ (i 1).val ∧ (i 1).val < win0_2.index ⟨(i 0).val / 8192, hN⟩ (1 : Fin 2) * 4 + 4
    rw [e21]; omega

/-- The result array after the run. -/
theorem final (c : Dev nD) : (dats m 0 c).arrAt 2 cfg0.N = G (V m c main_arg0) (V m c main_arg1) :=
  (dats m 0 c).arrAt_eq_of_cover 2 (G (V m c main_arg0) (V m c main_arg1)) (fun t _ => flushed_eq m c t) cover

/-- The frame run re-posted: the result array at `G` of the arguments, the arguments unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.ValueP.run_blocks m ρ)

end Cert.Qka.Kern

end
-- ==== Proof.RefStages.lean ====
/-
  The eight rotation stages of the reference, read index by index.

  The reference keeps the 16 amplitudes of a batch row in a `[B, 8, 2]` array whose LAST axis is the bit of the wire
  about to be rotated; the other three bits, in their order, are flattened into the middle axis. A rotation acts on
  the last axis alone (`core`), and between two rotations the array is relaid out for the next wire (a reshape to
  `[B, 2, 2, 2, 2]`, one or two transposes, a reshape back). This file reads `core` and the relayouts at an index,
  reads the half-angle factors, and follows the state through the eight stages: the final `[B, 2, 2, 2, 2]` array at
  `(b, i₁, i₂, i₃, i₄)` is `amp u v i₁ i₂ i₃ i₄` for `u`, `v` rows `b` of the two arguments. The start state is taken
  as a hypothesis (`start` at `(b, i₁, i₂, i₃, i₄)` is `init i₁ i₂ i₃ i₄`).

  No law of the extended reals is used: every step is a reading of a layout operation at an index, and the
  arithmetic is matched term by term with the specification's `ry0` … `ry3`.
-/
import proofs.«109609_j65481071404174_2_alg».proof.Proof.Spec
import proofs.«109609_j65481071404174_2_alg».proof.Proof.Gen.ReferenceIdeal.Run
import Idealize.ShloMosaic.Lib.Pipeline.Value
import Idealize.ShloMosaic.Lib.ValueIdx
import Idealize.ShloMosaic.PureOps.Ideal.Laws

noncomputable section

namespace Cert.Qka.Ref

open Cert.ReferenceIdeal Cert.ReferenceIdeal.Gen Cert.ReferenceIdeal.Value Idealize.ShloMosaic Idealize.ShloMosaic.ValueIdx Idealize.ShloMosaic.StableHlo

/-! ### One rotation on the pair axis

With the rotated wire's bit on the LAST axis of a `[B, 8, 2]` array, a rotation with half-angle factors `c`, `s`
(one per batch row) sends the pair `(a₀, a₁)` at each `(b, j)` to `(c·a₀ − s·a₁, s·a₀ + c·a₁)`. -/

/-- The rotation of the pair axis, as the reference spells it: the two components are sliced out, multiplied by the
    broadcast factors, combined, and concatenated back along the pair axis. -/
def core (c s : FVec Ideal S1048576x1 .f32) (prev : FVec Ideal S1048576x8x2 .f32) : FVec Ideal S1048576x8x2 .f32 :=
  concatenate S1048576x8x2 2 [⟨S1048576x8x1, (broadcastInDim S1048576x8x1 ![0, 1] bcast_S1048576x8_S1048576x8x1_0_1 (subf (mulf (broadcastInDim S1048576x8 ![0, 1] bcast_S1048576x1_S1048576x8_0_1 c) (shapeCast _ (extractStridedSlice S1048576x8x1 ![0, 0, 0] prev slices_S1048576x8x2_S1048576x8x1_0_0_0) shapeCasts_S1048576x8x1_S1048576x8)) (mulf (broadcastInDim S1048576x8 ![0, 1] bcast_S1048576x1_S1048576x8_0_1 s) (shapeCast _ (extractStridedSlice S1048576x8x1 ![0, 0, 1] prev slices_S1048576x8x2_S1048576x8x1_0_0_1) shapeCasts_S1048576x8x1_S1048576x8))))⟩, ⟨S1048576x8x1, (broadcastInDim S1048576x8x1 ![0, 1] bcast_S1048576x8_S1048576x8x1_0_1 (addf (mulf (broadcastInDim S1048576x8 ![0, 1] bcast_S1048576x1_S1048576x8_0_1 s) (shapeCast _ (extractStridedSlice S1048576x8x1 ![0, 0, 0] prev slices_S1048576x8x2_S1048576x8x1_0_0_0) shapeCasts_S1048576x8x1_S1048576x8)) (mulf (broadcastInDim S1048576x8 ![0, 1] bcast_S1048576x1_S1048576x8_0_1 c) (shapeCast _ (extractStridedSlice S1048576x8x1 ![0, 0, 1] prev slices_S1048576x8x2_S1048576x8x1_0_0_1) shapeCasts_S1048576x8x1_S1048576x8))))⟩] concatenates_S1048576x8x1_S1048576x8x1_S1048576x8x2_d2

/-- A per-row factor broadcast along the eight pairs reads the row's factor. -/
theorem bcast_row (c : FVec Ideal S1048576x1 .f32) (b : Fin 1048576) (j : Fin 8) :
    broadcastInDim S1048576x8 ![0, 1] bcast_S1048576x1_S1048576x8_0_1 c (ix2 b j) = c (ix2 b 0) :=
  broadcastInDim_apply _ _ c (ix2 b j) (ix2 b 0) (fun a => match a with
    | ⟨0, _⟩ => rfl
    | ⟨1, _⟩ => rfl)

/-- A `[B, 8]` array given a trailing unit axis reads the same entry. -/
theorem bcast_unit (v : FVec Ideal S1048576x8 .f32) (b : Fin 1048576) (j : Fin 8) (k : Fin 1) :
    broadcastInDim S1048576x8x1 ![0, 1] bcast_S1048576x8_S1048576x8x1_0_1 v (ix3 b j k) = v (ix2 b j) :=
  broadcastInDim_apply _ _ v (ix3 b j k) (ix2 b j) (fun a => match a with
    | ⟨0, _⟩ => rfl
    | ⟨1, _⟩ => rfl)

/-- Component 0 of the pairs, as a `[B, 8]` array. -/
theorem comp0 (prev : FVec Ideal S1048576x8x2 .f32) (b : Fin 1048576) (j : Fin 8) :
    shapeCast S1048576x8 (extractStridedSlice S1048576x8x1 ![0, 0, 0] prev slices_S1048576x8x2_S1048576x8x1_0_0_0) shapeCasts_S1048576x8x1_S1048576x8 (ix2 b j)
      = prev (ix3 b j 0) := by
  refine (shapeCast_apply _ _ (ix2 b j) (ix3 b j 0) (by
    rw [Shape.rowMajor_val_three, Shape.rowMajor_val_two]
    show (b.val * 8 + j.val) * 1 + 0 = b.val * 8 + j.val
    omega)).trans ?_
  exact extractStridedSlice_apply _ _ _ _ (ix3 b j 0) (fun a => match a with
    | ⟨0, _⟩ => by show b.val = 0 + b.val; omega
    | ⟨1, _⟩ => by show j.val = 0 + j.val; omega
    | ⟨2, _⟩ => by show 0 = 0 + 0; omega)

/-- Component 1 of the pairs, as a `[B, 8]` array. -/
theorem comp1 (prev : FVec Ideal S1048576x8x2 .f32) (b : Fin 1048576) (j : Fin 8) :
    shapeCast S1048576x8 (extractStridedSlice S1048576x8x1 ![0, 0, 1] prev slices_S1048576x8x2_S1048576x8x1_0_0_1) shapeCasts_S1048576x8x1_S1048576x8 (ix2 b j)
      = prev (ix3 b j 1) := by
  refine (shapeCast_apply _ _ (ix2 b j) (ix3 b j 0) (by
    rw [Shape.rowMajor_val_three, Shape.rowMajor_val_two]
    show (b.val * 8 + j.val) * 1 + 0 = b.val * 8 + j.val
    omega)).trans ?_
  exact extractStridedSlice_apply _ _ _ _ (ix3 b j 1) (fun a => match a with
    | ⟨0, _⟩ => by show b.val = 0 + b.val; omega
    | ⟨1, _⟩ => by show j.val = 0 + j.val; omega
    | ⟨2, _⟩ => by show 1 = 1 + 0; omega)

/-- The rotated pair's component 0. -/
theorem core_apply_zero (c s : FVec Ideal S1048576x1 .f32) (prev : FVec Ideal S1048576x8x2 .f32) (b : Fin 1048576) (j : Fin 8) :
    core c s prev (ix3 b j 0) = c (ix2 b 0) * prev (ix3 b j 0) - s (ix2 b 0) * prev (ix3 b j 1) := by
  unfold core
  refine (concatenate_pair_apply_left (t := S1048576x8x2) (s₁ := S1048576x8x1) (s₂ := S1048576x8x1) 2 _ _ _
    (ix3 b j (0 : Fin 2)) rfl (ix3 b j (0 : Fin 1)) (fun a => match a with
    | ⟨0, _⟩ => rfl
    | ⟨1, _⟩ => rfl
    | ⟨2, _⟩ => rfl)).trans ?_
  rw [bcast_unit, subf_apply, mulf_apply, mulf_apply, bcast_row, bcast_row, comp0, comp1]

/-- The rotated pair's component 1. -/
theorem core_apply_one (c s : FVec Ideal S1048576x1 .f32) (prev : FVec Ideal S1048576x8x2 .f32) (b : Fin 1048576) (j : Fin 8) :
    core c s prev (ix3 b j 1) = s (ix2 b 0) * prev (ix3 b j 0) + c (ix2 b 0) * prev (ix3 b j 1) := by
  unfold core
  refine (concatenate_pair_apply_right (t := S1048576x8x2) (s₁ := S1048576x8x1) (s₂ := S1048576x8x1) 2 _ _ _
    (ix3 b j (1 : Fin 2)) rfl rfl (ix3 b j (0 : Fin 1)) (fun a => match a with
    | ⟨0, _⟩ => fun _ => rfl
    | ⟨1, _⟩ => fun _ => rfl
    | ⟨2, _⟩ => fun h => absurd rfl h) rfl).trans ?_
  rw [bcast_unit, addf_apply, mulf_apply, mulf_apply, bcast_row, bcast_row, comp0, comp1]

/-! ### The layouts

Three bits `p q r` (the first the most significant) sit at position `4p + 2q + r` of the middle axis. A `[B, 8, 2]`
array is the `[B, 2, 2, 2, 2]` array with the same row-major order; the relayouts between two rotations are
transposes of the latter. -/

/-- The position of three bits on the middle axis, the first the most significant. -/
def j3 (p q r : Fin 2) : Fin 8 := ⟨4 * p.val + 2 * q.val + r.val, by omega⟩

/-- `[B, 8, 2]` read as `[B, 2, 2, 2, 2]`. -/
theorem cast5_apply (A : FVec Ideal S1048576x8x2 .f32) (b : Fin 1048576) (p q r k : Fin 2) :
    shapeCast S1048576x2x2x2x2 A shapeCasts_S1048576x8x2_S1048576x2x2x2x2 (ix5 b p q r k) = A (ix3 b (j3 p q r) k) :=
  shapeCast_apply _ _ (ix5 b p q r k) (ix3 b (j3 p q r) k) (by
    rw [Shape.rowMajor_val_three, Shape.rowMajor_val_five]
    show (b.val * 8 + (4 * p.val + 2 * q.val + r.val)) * 2 + k.val
      = (((b.val * 2 + p.val) * 2 + q.val) * 2 + r.val) * 2 + k.val
    omega)

/-- `[B, 2, 2, 2, 2]` read as `[B, 8, 2]`. -/
theorem cast3_apply (X : FVec Ideal S1048576x2x2x2x2 .f32) (b : Fin 1048576) (p q r k : Fin 2) :
    shapeCast S1048576x8x2 X shapeCasts_S1048576x2x2x2x2_S1048576x8x2 (ix3 b (j3 p q r) k) = X (ix5 b p q r k) :=
  shapeCast_apply _ _ (ix3 b (j3 p q r) k) (ix5 b p q r k) (by
    rw [Shape.rowMajor_val_five, Shape.rowMajor_val_three]
    show (((b.val * 2 + p.val) * 2 + q.val) * 2 + r.val) * 2 + k.val
      = (b.val * 8 + (4 * p.val + 2 * q.val + r.val)) * 2 + k.val
    omega)

/-- The transpose `[0, 2, 3, 4, 1]`: the first bit goes last. -/
theorem tr_02341 (X : FVec Ideal S1048576x2x2x2x2 .f32) (b : Fin 1048576) (y1 y2 y3 y4 : Fin 2) :
    transpose S1048576x2x2x2x2 [0, 2, 3, 4, 1] X transposes_S1048576x2x2x2x2_S1048576x2x2x2x2_0_2_3_4_1 (ix5 b y1 y2 y3 y4)
      = X (ix5 b y4 y1 y2 y3) :=
  transpose_apply _ X _ (ix5 b y1 y2 y3 y4) (ix5 b y4 y1 y2 y3) (fun a => match a with
    | ⟨0, _⟩ => rfl | ⟨1, _⟩ => rfl | ⟨2, _⟩ => rfl | ⟨3, _⟩ => rfl | ⟨4, _⟩ => rfl)

/-- The transpose `[0, 4, 1, 2, 3]`: the last bit goes first. -/
theorem tr_04123 (X : FVec Ideal S1048576x2x2x2x2 .f32) (b : Fin 1048576) (y1 y2 y3 y4 : Fin 2) :
    transpose S1048576x2x2x2x2 [0, 4, 1, 2, 3] X transposes_S1048576x2x2x2x2_S1048576x2x2x2x2_0_4_1_2_3 (ix5 b y1 y2 y3 y4)
      = X (ix5 b y2 y3 y4 y1) :=
  transpose_apply _ X _ (ix5 b y1 y2 y3 y4) (ix5 b y2 y3 y4 y1) (fun a => match a with
    | ⟨0, _⟩ => rfl | ⟨1, _⟩ => rfl | ⟨2, _⟩ => rfl | ⟨3, _⟩ => rfl | ⟨4, _⟩ => rfl)

/-- The transpose `[0, 1, 3, 4, 2]`: the second bit goes last. -/
theorem tr_01342 (X : FVec Ideal S1048576x2x2x2x2 .f32) (b : Fin 1048576) (y1 y2 y3 y4 : Fin 2) :
    transpose S1048576x2x2x2x2 [0, 1, 3, 4, 2] X transposes_S1048576x2x2x2x2_S1048576x2x2x2x2_0_1_3_4_2 (ix5 b y1 y2 y3 y4)
      = X (ix5 b y1 y4 y2 y3) :=
  transpose_apply _ X _ (ix5 b y1 y2 y3 y4) (ix5 b y1 y4 y2 y3) (fun a => match a with
    | ⟨0, _⟩ => rfl | ⟨1, _⟩ => rfl | ⟨2, _⟩ => rfl | ⟨3, _⟩ => rfl | ⟨4, _⟩ => rfl)

/-- The transpose `[0, 1, 4, 2, 3]`: the last bit goes second. -/
theorem tr_01423 (X : FVec Ideal S1048576x2x2x2x2 .f32) (b : Fin 1048576) (y1 y2 y3 y4 : Fin 2) :
    transpose S1048576x2x2x2x2 [0, 1, 4, 2, 3] X transposes_S1048576x2x2x2x2_S1048576x2x2x2x2_0_1_4_2_3 (ix5 b y1 y2 y3 y4)
      = X (ix5 b y1 y3 y4 y2) :=
  transpose_apply _ X _ (ix5 b y1 y2 y3 y4) (ix5 b y1 y3 y4 y2) (fun a => match a with
    | ⟨0, _⟩ => rfl | ⟨1, _⟩ => rfl | ⟨2, _⟩ => rfl | ⟨3, _⟩ => rfl | ⟨4, _⟩ => rfl)

/-- The transpose `[0, 1, 2, 4, 3]`: the last two bits are exchanged. -/
theorem tr_01243 (X : FVec Ideal S1048576x2x2x2x2 .f32) (b : Fin 1048576) (y1 y2 y3 y4 : Fin 2) :
    transpose S1048576x2x2x2x2 [0, 1, 2, 4, 3] X transposes_S1048576x2x2x2x2_S1048576x2x2x2x2_0_1_2_4_3 (ix5 b y1 y2 y3 y4)
      = X (ix5 b y1 y2 y4 y3) :=
  transpose_apply _ X _ (ix5 b y1 y2 y3 y4) (ix5 b y1 y2 y4 y3) (fun a => match a with
    | ⟨0, _⟩ => rfl | ⟨1, _⟩ => rfl | ⟨2, _⟩ => rfl | ⟨3, _⟩ => rfl | ⟨4, _⟩ => rfl)

/-- From the layout with wire 0's bit last to the one with wire 1's bit last. -/
def relay1 (A : FVec Ideal S1048576x8x2 .f32) : FVec Ideal S1048576x8x2 .f32 :=
  shapeCast _ (transpose S1048576x2x2x2x2 [0, 1, 3, 4, 2] (transpose S1048576x2x2x2x2 [0, 4, 1, 2, 3] (shapeCast _ A shapeCasts_S1048576x8x2_S1048576x2x2x2x2) transposes_S1048576x2x2x2x2_S1048576x2x2x2x2_0_4_1_2_3) transposes_S1048576x2x2x2x2_S1048576x2x2x2x2_0_1_3_4_2) shapeCasts_S1048576x2x2x2x2_S1048576x8x2

/-- From the layout with wire 1's bit last to the one with wire 2's bit last. -/
def relay2 (A : FVec Ideal S1048576x8x2 .f32) : FVec Ideal S1048576x8x2 .f32 :=
  shapeCast _ (transpose S1048576x2x2x2x2 [0, 1, 2, 4, 3] (transpose S1048576x2x2x2x2 [0, 1, 4, 2, 3] (shapeCast _ A shapeCasts_S1048576x8x2_S1048576x2x2x2x2) transposes_S1048576x2x2x2x2_S1048576x2x2x2x2_0_1_4_2_3) transposes_S1048576x2x2x2x2_S1048576x2x2x2x2_0_1_2_4_3) shapeCasts_S1048576x2x2x2x2_S1048576x8x2

/-- From the layout with wire 2's bit last to the one with wire 3's bit last. -/
def relay3 (A : FVec Ideal S1048576x8x2 .f32) : FVec Ideal S1048576x8x2 .f32 :=
  shapeCast _ (transpose S1048576x2x2x2x2 [0, 1, 2, 4, 3] (shapeCast _ A shapeCasts_S1048576x8x2_S1048576x2x2x2x2) transposes_S1048576x2x2x2x2_S1048576x2x2x2x2_0_1_2_4_3) shapeCasts_S1048576x2x2x2x2_S1048576x8x2

/-- From the four bits in their order to the layout with wire 0's bit last. -/
def relay0 (X : FVec Ideal S1048576x2x2x2x2 .f32) : FVec Ideal S1048576x8x2 .f32 :=
  shapeCast _ (transpose S1048576x2x2x2x2 [0, 2, 3, 4, 1] X transposes_S1048576x2x2x2x2_S1048576x2x2x2x2_0_2_3_4_1) shapeCasts_S1048576x2x2x2x2_S1048576x8x2

/-- From the layout with wire 3's bit last (the four bits in their order) to the one with wire 0's bit last. -/
def relay4 (A : FVec Ideal S1048576x8x2 .f32) : FVec Ideal S1048576x8x2 .f32 :=
  relay0 (shapeCast _ A shapeCasts_S1048576x8x2_S1048576x2x2x2x2)

theorem relay1_apply (A : FVec Ideal S1048576x8x2 .f32) (b : Fin 1048576) (i1 i2 i3 i4 : Fin 2) :
    relay1 A (ix3 b (j3 i1 i3 i4) i2) = A (ix3 b (j3 i2 i3 i4) i1) := by
  unfold relay1
  rw [cast3_apply, tr_01342, tr_04123, cast5_apply]

theorem relay2_apply (A : FVec Ideal S1048576x8x2 .f32) (b : Fin 1048576) (i1 i2 i3 i4 : Fin 2) :
    relay2 A (ix3 b (j3 i1 i2 i4) i3) = A (ix3 b (j3 i1 i3 i4) i2) := by
  unfold relay2
  rw [cast3_apply, tr_01243, tr_01423, cast5_apply]

theorem relay3_apply (A : FVec Ideal S1048576x8x2 .f32) (b : Fin 1048576) (i1 i2 i3 i4 : Fin 2) :
    relay3 A (ix3 b (j3 i1 i2 i3) i4) = A (ix3 b (j3 i1 i2 i4) i3) := by
  unfold relay3
  rw [cast3_apply, tr_01243, cast5_apply]

theorem relay0_apply (X : FVec Ideal S1048576x2x2x2x2 .f32) (b : Fin 1048576) (i1 i2 i3 i4 : Fin 2) :
    relay0 X (ix3 b (j3 i2 i3 i4) i1) = X (ix5 b i1 i2 i3 i4) := by
  unfold relay0
  rw [cast3_apply, tr_02341]

theorem relay4_apply (A : FVec Ideal S1048576x8x2 .f32) (b : Fin 1048576) (i1 i2 i3 i4 : Fin 2) :
    relay4 A (ix3 b (j3 i2 i3 i4) i1) = A (ix3 b (j3 i1 i2 i3) i4) := by
  unfold relay4
  rw [relay0_apply, cast5_apply]

/-! ### The half-angle factors -/

/-- Column `w` of a `[B, 4]` array, as a `[B]` array. -/
theorem col_apply (x : FVec Ideal S1048576x4 .f32) (w : Fin 4) (h : S1048576x4.Slices ![0, w.val] S1048576x1) (b : Fin 1048576) :
    shapeCast S1048576 (extractStridedSlice S1048576x1 ![0, w.val] x h) shapeCasts_S1048576x1_S1048576 (ix1 b) = x (ix2 b w) := by
  refine (shapeCast_apply _ _ (ix1 b) (ix2 b (0 : Fin 1)) (by
    rw [Shape.rowMajor_val_two, Shape.rowMajor_val_one]
    show b.val * 1 + 0 = b.val
    omega)).trans ?_
  exact extractStridedSlice_apply _ _ _ _ (ix2 b w) (fun a => match a with
    | ⟨0, _⟩ => by show b.val = 0 + b.val; omega
    | ⟨1, _⟩ => by show w.val = w.val + 0; omega)

/-- The splat of the literal one half reads `half` everywhere. -/
theorem half_apply (b : Fin 1048576) :
    broadcastInDim S1048576 ![] bcast_S_S1048576 (constant (F := Ideal) S_ .f32 0x3F000000#32) (ix1 b) = Cert.Qka.half :=
  (broadcastInDim_apply _ _ _ (ix1 b) ix0 (fun a => a.elim0)).trans rfl

/-- The half-angle cosine of a `[B]` array of angles, as a `[B, 1]` array. -/
theorem cos_half_apply (col : FVec Ideal S1048576 .f32) (b : Fin 1048576) :
    broadcastInDim S1048576x1 ![0] bcast_S1048576_S1048576x1_0 (Host.cos (mulf col (broadcastInDim S1048576 ![] bcast_S_S1048576 (constant S_ .f32 0x3F000000#32)))) (ix2 b 0)
      = Cert.Qka.ch (col (ix1 b)) := by
  refine (broadcastInDim_apply _ _ _ (ix2 b (0 : Fin 1)) (ix1 b) (fun a => match a with | ⟨0, _⟩ => rfl)).trans ?_
  show Ideal.cos (col (ix1 b) * broadcastInDim S1048576 ![] bcast_S_S1048576 (constant (F := Ideal) S_ .f32 0x3F000000#32) (ix1 b)) = Ideal.cos (col (ix1 b) * Cert.Qka.half)
  rw [half_apply]

/-- The half-angle sine of a `[B]` array of angles, as a `[B, 1]` array. -/
theorem sin_half_apply (col : FVec Ideal S1048576 .f32) (b : Fin 1048576) :
    broadcastInDim S1048576x1 ![0] bcast_S1048576_S1048576x1_0 (Host.sin (mulf col (broadcastInDim S1048576 ![] bcast_S_S1048576 (constant S_ .f32 0x3F000000#32)))) (ix2 b 0)
      = Cert.Qka.sh (col (ix1 b)) := by
  refine (broadcastInDim_apply _ _ _ (ix2 b (0 : Fin 1)) (ix1 b) (fun a => match a with | ⟨0, _⟩ => rfl)).trans ?_
  show Ideal.sin (col (ix1 b) * broadcastInDim S1048576 ![] bcast_S_S1048576 (constant (F := Ideal) S_ .f32 0x3F000000#32) (ix1 b)) = Ideal.sin (col (ix1 b) * Cert.Qka.half)
  rw [half_apply]

/-- Row `b` of the first argument. -/
abbrev xrow (V0 : Valuation τ sig (Elt Ideal)) (b : Fin 1048576) : Fin 4 → EReal :=
  Cert.Qka.row (V0 (Proc.devRef .tc main_arg0)) b
/-- Row `b` of the second argument. -/
abbrev yrow (V0 : Valuation τ sig (Elt Ideal)) (b : Fin 1048576) : Fin 4 → EReal :=
  Cert.Qka.row (V0 (Proc.devRef .tc main_arg1)) b

theorem v10_apply (V0 : Valuation τ sig (Elt Ideal)) (b : Fin 1048576) :
    res_main_v10 (F := Ideal) V0 (ix2 b 0) = Cert.Qka.ch (xrow V0 b 0) :=
  (cos_half_apply (res_main_v6 V0) b).trans (congrArg Cert.Qka.ch (col_apply _ 0 slices_S1048576x4_S1048576x1_0_0 b))
theorem v14_apply (V0 : Valuation τ sig (Elt Ideal)) (b : Fin 1048576) :
    res_main_v14 (F := Ideal) V0 (ix2 b 0) = Cert.Qka.sh (xrow V0 b 0) :=
  (sin_half_apply (res_main_v6 V0) b).trans (congrArg Cert.Qka.sh (col_apply _ 0 slices_S1048576x4_S1048576x1_0_0 b))
theorem v45_apply (V0 : Valuation τ sig (Elt Ideal)) (b : Fin 1048576) :
    res_main_v45 (F := Ideal) V0 (ix2 b 0) = Cert.Qka.ch (xrow V0 b 1) :=
  (cos_half_apply (res_main_v41 V0) b).trans (congrArg Cert.Qka.ch (col_apply _ 1 slices_S1048576x4_S1048576x1_0_1 b))
theorem v49_apply (V0 : Valuation τ sig (Elt Ideal)) (b : Fin 1048576) :
    res_main_v49 (F := Ideal) V0 (ix2 b 0) = Cert.Qka.sh (xrow V0 b 1) :=
  (sin_half_apply (res_main_v41 V0) b).trans (congrArg Cert.Qka.sh (col_apply _ 1 slices_S1048576x4_S1048576x1_0_1 b))
theorem v80_apply (V0 : Valuation τ sig (Elt Ideal)) (b : Fin 1048576) :
    res_main_v80 (F := Ideal) V0 (ix2 b 0) = Cert.Qka.ch (xrow V0 b 2) :=
  (cos_half_apply (res_main_v76 V0) b).trans (congrArg Cert.Qka.ch (col_apply _ 2 slices_S1048576x4_S1048576x1_0_2 b))
theorem v84_apply (V0 : Valuation τ sig (Elt Ideal)) (b : Fin 1048576) :
    res_main_v84 (F := Ideal) V0 (ix2 b 0) = Cert.Qka.sh (xrow V0 b 2) :=
  (sin_half_apply (res_main_v76 V0) b).trans (congrArg Cert.Qka.sh (col_apply _ 2 slices_S1048576x4_S1048576x1_0_2 b))
theorem v115_apply (V0 : Valuation τ sig (Elt Ideal)) (b : Fin 1048576) :
    res_main_v115 (F := Ideal) V0 (ix2 b 0) = Cert.Qka.ch (xrow V0 b 3) :=
  (cos_half_apply (res_main_v111 V0) b).trans (congrArg Cert.Qka.ch (col_apply _ 3 slices_S1048576x4_S1048576x1_0_3 b))
theorem v119_apply (V0 : Valuation τ sig (Elt Ideal)) (b : Fin 1048576) :
    res_main_v119 (F := Ideal) V0 (ix2 b 0) = Cert.Qka.sh (xrow V0 b 3) :=
  (sin_half_apply (res_main_v111 V0) b).trans (congrArg Cert.Qka.sh (col_apply _ 3 slices_S1048576x4_S1048576x1_0_3 b))
theorem v148_apply (V0 : Valuation τ sig (Elt Ideal)) (b : Fin 1048576) :
    res_main_v148 (F := Ideal) V0 (ix2 b 0) = Cert.Qka.ch (yrow V0 b 0) :=
  (cos_half_apply (res_main_v144 V0) b).trans (congrArg Cert.Qka.ch (col_apply _ 0 slices_S1048576x4_S1048576x1_0_0 b))
theorem v152_apply (V0 : Valuation τ sig (Elt Ideal)) (b : Fin 1048576) :
    res_main_v152 (F := Ideal) V0 (ix2 b 0) = Cert.Qka.sh (yrow V0 b 0) :=
  (sin_half_apply (res_main_v144 V0) b).trans (congrArg Cert.Qka.sh (col_apply _ 0 slices_S1048576x4_S1048576x1_0_0 b))
theorem v183_apply (V0 : Valuation τ sig (Elt Ideal)) (b : Fin 1048576) :
    res_main_v183 (F := Ideal) V0 (ix2 b 0) = Cert.Qka.ch (yrow V0 b 1) :=
  (cos_half_apply (res_main_v179 V0) b).trans (congrArg Cert.Qka.ch (col_apply _ 1 slices_S1048576x4_S1048576x1_0_1 b))
theorem v187_apply (V0 : Valuation τ sig (Elt Ideal)) (b : Fin 1048576) :
    res_main_v187 (F := Ideal) V0 (ix2 b 0) = Cert.Qka.sh (yrow V0 b 1) :=
  (sin_half_apply (res_main_v179 V0) b).trans (congrArg Cert.Qka.sh (col_apply _ 1 slices_S1048576x4_S1048576x1_0_1 b))
theorem v218_apply (V0 : Valuation τ sig (Elt Ideal)) (b : Fin 1048576) :
    res_main_v218 (F := Ideal) V0 (ix2 b 0) = Cert.Qka.ch (yrow V0 b 2) :=
  (cos_half_apply (res_main_v214 V0) b).trans (congrArg Cert.Qka.ch (col_apply _ 2 slices_S1048576x4_S1048576x1_0_2 b))
theorem v222_apply (V0 : Valuation τ sig (Elt Ideal)) (b : Fin 1048576) :
    res_main_v222 (F := Ideal) V0 (ix2 b 0) = Cert.Qka.sh (yrow V0 b 2) :=
  (sin_half_apply (res_main_v214 V0) b).trans (congrArg Cert.Qka.sh (col_apply _ 2 slices_S1048576x4_S1048576x1_0_2 b))
theorem v253_apply (V0 : Valuation τ sig (Elt Ideal)) (b : Fin 1048576) :
    res_main_v253 (F := Ideal) V0 (ix2 b 0) = Cert.Qka.ch (yrow V0 b 3) :=
  (cos_half_apply (res_main_v249 V0) b).trans (congrArg Cert.Qka.ch (col_apply _ 3 slices_S1048576x4_S1048576x1_0_3 b))
theorem v257_apply (V0 : Valuation τ sig (Elt Ideal)) (b : Fin 1048576) :
    res_main_v257 (F := Ideal) V0 (ix2 b 0) = Cert.Qka.sh (yrow V0 b 3) :=
  (sin_half_apply (res_main_v249 V0) b).trans (congrArg Cert.Qka.sh (col_apply _ 3 slices_S1048576x4_S1048576x1_0_3 b))

/-! ### A rotation in each of the four layouts

`LayK A b P`: the `[B, 8, 2]` array `A` holds, on row `b`, the state `P` with wire `K`'s bit on the last axis and the
other three bits, in their order, on the middle axis. -/

abbrev Lay0 (A : FVec Ideal S1048576x8x2 .f32) (b : Fin 1048576) (P : St) : Prop :=
  ∀ i1 i2 i3 i4 : Fin 2, A (ix3 b (j3 i2 i3 i4) i1) = P i1 i2 i3 i4
abbrev Lay1 (A : FVec Ideal S1048576x8x2 .f32) (b : Fin 1048576) (P : St) : Prop :=
  ∀ i1 i2 i3 i4 : Fin 2, A (ix3 b (j3 i1 i3 i4) i2) = P i1 i2 i3 i4
abbrev Lay2 (A : FVec Ideal S1048576x8x2 .f32) (b : Fin 1048576) (P : St) : Prop :=
  ∀ i1 i2 i3 i4 : Fin 2, A (ix3 b (j3 i1 i2 i4) i3) = P i1 i2 i3 i4
abbrev Lay3 (A : FVec Ideal S1048576x8x2 .f32) (b : Fin 1048576) (P : St) : Prop :=
  ∀ i1 i2 i3 i4 : Fin 2, A (ix3 b (j3 i1 i2 i3) i4) = P i1 i2 i3 i4

/-- In wire 0's layout the rotation of the pair axis is `ry0`. -/
theorem rot0 {c s : FVec Ideal S1048576x1 .f32} {prev : FVec Ideal S1048576x8x2 .f32} {b : Fin 1048576} {cc ss : EReal} {P : St}
    (hc : c (ix2 b 0) = cc) (hs : s (ix2 b 0) = ss) (h : Lay0 prev b P) : Lay0 (core c s prev) b (ry0 cc ss P) := by
  intro i1 i2 i3 i4
  match i1 with
  | ⟨0, _⟩ =>
    show core c s prev (ix3 b (j3 i2 i3 i4) 0) = ry0 cc ss P 0 i2 i3 i4
    rw [core_apply_zero, hc, hs, h 0 i2 i3 i4, h 1 i2 i3 i4, ry0_zero]
  | ⟨1, _⟩ =>
    show core c s prev (ix3 b (j3 i2 i3 i4) 1) = ry0 cc ss P 1 i2 i3 i4
    rw [core_apply_one, hc, hs, h 0 i2 i3 i4, h 1 i2 i3 i4, ry0_one]

/-- In wire 1's layout the rotation of the pair axis is `ry1`. -/
theorem rot1 {c s : FVec Ideal S1048576x1 .f32} {prev : FVec Ideal S1048576x8x2 .f32} {b : Fin 1048576} {cc ss : EReal} {P : St}
    (hc : c (ix2 b 0) = cc) (hs : s (ix2 b 0) = ss) (h : Lay1 prev b P) : Lay1 (core c s prev) b (ry1 cc ss P) := by
  intro i1 i2 i3 i4
  match i2 with
  | ⟨0, _⟩ =>
    show core c s prev (ix3 b (j3 i1 i3 i4) 0) = ry1 cc ss P i1 0 i3 i4
    rw [core_apply_zero, hc, hs, h i1 0 i3 i4, h i1 1 i3 i4, ry1_zero]
  | ⟨1, _⟩ =>
    show core c s prev (ix3 b (j3 i1 i3 i4) 1) = ry1 cc ss P i1 1 i3 i4
    rw [core_apply_one, hc, hs, h i1 0 i3 i4, h i1 1 i3 i4, ry1_one]

/-- In wire 2's layout the rotation of the pair axis is `ry2`. -/
theorem rot2 {c s : FVec Ideal S1048576x1 .f32} {prev : FVec Ideal S1048576x8x2 .f32} {b : Fin 1048576} {cc ss : EReal} {P : St}
    (hc : c (ix2 b 0) = cc) (hs : s (ix2 b 0) = ss) (h : Lay2 prev b P) : Lay2 (core c s prev) b (ry2 cc ss P) := by
  intro i1 i2 i3 i4
  match i3 with
  | ⟨0, _⟩ =>
    show core c s prev (ix3 b (j3 i1 i2 i4) 0) = ry2 cc ss P i1 i2 0 i4
    rw [core_apply_zero, hc, hs, h i1 i2 0 i4, h i1 i2 1 i4, ry2_zero]
  | ⟨1, _⟩ =>
    show core c s prev (ix3 b (j3 i1 i2 i4) 1) = ry2 cc ss P i1 i2 1 i4
    rw [core_apply_one, hc, hs, h i1 i2 0 i4, h i1 i2 1 i4, ry2_one]

/-- In wire 3's layout the rotation of the pair axis is `ry3`. -/
theorem rot3 {c s : FVec Ideal S1048576x1 .f32} {prev : FVec Ideal S1048576x8x2 .f32} {b : Fin 1048576} {cc ss : EReal} {P : St}
    (hc : c (ix2 b 0) = cc) (hs : s (ix2 b 0) = ss) (h : Lay3 prev b P) : Lay3 (core c s prev) b (ry3 cc ss P) := by
  intro i1 i2 i3 i4
  match i4 with
  | ⟨0, _⟩ =>
    show core c s prev (ix3 b (j3 i1 i2 i3) 0) = ry3 cc ss P i1 i2 i3 0
    rw [core_apply_zero, hc, hs, h i1 i2 i3 0, h i1 i2 i3 1, ry3_zero]
  | ⟨1, _⟩ =>
    show core c s prev (ix3 b (j3 i1 i2 i3) 1) = ry3 cc ss P i1 i2 i3 1
    rw [core_apply_one, hc, hs, h i1 i2 i3 0, h i1 i2 i3 1, ry3_one]

/-! ### The relayouts carry a state from one layout to the next -/

theorem lay_relay0 {X : FVec Ideal S1048576x2x2x2x2 .f32} {b : Fin 1048576} {P : St}
    (h : ∀ i1 i2 i3 i4 : Fin 2, X (ix5 b i1 i2 i3 i4) = P i1 i2 i3 i4) : Lay0 (relay0 X) b P :=
  fun i1 i2 i3 i4 => (relay0_apply X b i1 i2 i3 i4).trans (h i1 i2 i3 i4)
theorem lay_relay1 {A : FVec Ideal S1048576x8x2 .f32} {b : Fin 1048576} {P : St} (h : Lay0 A b P) : Lay1 (relay1 A) b P :=
  fun i1 i2 i3 i4 => (relay1_apply A b i1 i2 i3 i4).trans (h i1 i2 i3 i4)
theorem lay_relay2 {A : FVec Ideal S1048576x8x2 .f32} {b : Fin 1048576} {P : St} (h : Lay1 A b P) : Lay2 (relay2 A) b P :=
  fun i1 i2 i3 i4 => (relay2_apply A b i1 i2 i3 i4).trans (h i1 i2 i3 i4)
theorem lay_relay3 {A : FVec Ideal S1048576x8x2 .f32} {b : Fin 1048576} {P : St} (h : Lay2 A b P) : Lay3 (relay3 A) b P :=
  fun i1 i2 i3 i4 => (relay3_apply A b i1 i2 i3 i4).trans (h i1 i2 i3 i4)
theorem lay_relay4 {A : FVec Ideal S1048576x8x2 .f32} {b : Fin 1048576} {P : St} (h : Lay3 A b P) : Lay0 (relay4 A) b P :=
  fun i1 i2 i3 i4 => (relay4_apply A b i1 i2 i3 i4).trans (h i1 i2 i3 i4)

/-! ### The reference's stages

Each named stage of the reference's run is a relayout of `core` applied to the previous stage, by unfolding alone. -/

/-- The start state as the reference builds it: the literal one scattered into column 0 of a `[B, 16]` array of the
    literal zero, read as `[B, 2, 2, 2, 2]`. -/
def start : FVec Ideal S1048576x2x2x2x2 .f32 :=
  shapeCast _ (Host.scatter scatter_S1048576x16_S1_S1048576_0_1_1_0 (fun _ b => b) (broadcastInDim S1048576x16 ![] bcast_S_S1048576x16 (constant (F := Ideal) S_ .f32 0x00000000#32)) (broadcastInDim S1 ![] bcast_S_S1 (constantI S_ 32 0#32)) (broadcastInDim S1048576 ![] bcast_S_S1048576 (constant (F := Ideal) S_ .f32 0x3F800000#32))) shapeCasts_S1048576x16_S1048576x2x2x2x2

theorem v16_eq (V0 : Valuation τ sig (Elt Ideal)) : res_main_v16 (F := Ideal) V0 = relay0 start := rfl
theorem v51_eq (V0 : Valuation τ sig (Elt Ideal)) :
    res_main_v51 (F := Ideal) V0 = relay1 (core (res_main_v10 V0) (res_main_v14 V0) (res_main_v16 V0)) := rfl
theorem v86_eq (V0 : Valuation τ sig (Elt Ideal)) :
    res_main_v86 (F := Ideal) V0 = relay2 (core (res_main_v45 V0) (res_main_v49 V0) (res_main_v51 V0)) := rfl
theorem v120_eq (V0 : Valuation τ sig (Elt Ideal)) :
    res_main_v120 (F := Ideal) V0 = relay3 (core (res_main_v80 V0) (res_main_v84 V0) (res_main_v86 V0)) := rfl
theorem v154_eq (V0 : Valuation τ sig (Elt Ideal)) :
    res_main_v154 (F := Ideal) V0 = relay4 (core (res_main_v115 V0) (res_main_v119 V0) (res_main_v120 V0)) := rfl
theorem v189_eq (V0 : Valuation τ sig (Elt Ideal)) :
    res_main_v189 (F := Ideal) V0 = relay1 (core (res_main_v148 V0) (res_main_v152 V0) (res_main_v154 V0)) := rfl
theorem v224_eq (V0 : Valuation τ sig (Elt Ideal)) :
    res_main_v224 (F := Ideal) V0 = relay2 (core (res_main_v183 V0) (res_main_v187 V0) (res_main_v189 V0)) := rfl
theorem v258_eq (V0 : Valuation τ sig (Elt Ideal)) :
    res_main_v258 (F := Ideal) V0 = relay3 (core (res_main_v218 V0) (res_main_v222 V0) (res_main_v224 V0)) := rfl
theorem v280_eq (V0 : Valuation τ sig (Elt Ideal)) :
    res_main_v280 (F := Ideal) V0
      = shapeCast S1048576x2x2x2x2 (core (res_main_v253 V0) (res_main_v257 V0) (res_main_v258 V0)) shapeCasts_S1048576x8x2_S1048576x2x2x2x2 := rfl

/-! ### The state through the eight stages -/

/-- The state after the rotations of the first encoding on wires 0; 0, 1; 0, 1, 2; and all four. -/
def psi1 (u : Fin 4 → EReal) : St := ry0 (ch (u 0)) (sh (u 0)) init
def psi2 (u : Fin 4 → EReal) : St := ry1 (ch (u 1)) (sh (u 1)) (psi1 u)
def psi3 (u : Fin 4 → EReal) : St := ry2 (ch (u 2)) (sh (u 2)) (psi2 u)
def psi4 (u : Fin 4 → EReal) : St := ry3 (ch (u 3)) (sh (u 3)) (psi3 u)
/-- The state after the first encoding and the rotations of the second on wires 0; 0, 1; 0, 1, 2; and all four. -/
def psi5 (u v : Fin 4 → EReal) : St := ry0 (ch (v 0)) (sh (v 0)) (psi4 u)
def psi6 (u v : Fin 4 → EReal) : St := ry1 (ch (v 1)) (sh (v 1)) (psi5 u v)
def psi7 (u v : Fin 4 → EReal) : St := ry2 (ch (v 2)) (sh (v 2)) (psi6 u v)
def psi8 (u v : Fin 4 → EReal) : St := ry3 (ch (v 3)) (sh (v 3)) (psi7 u v)

/-- The last of them is the specification's final state. -/
theorem amp_eq (u v : Fin 4 → EReal) : amp u v = psi8 u v := rfl

section Stages
variable (hstart : ∀ (b : Fin 1048576) (i1 i2 i3 i4 : Fin 2), start (ix5 b i1 i2 i3 i4) = Cert.Qka.init i1 i2 i3 i4)
  (V0 : Valuation τ sig (Elt Ideal)) (b : Fin 1048576)
include hstart

theorem lay_v16 : Lay0 (res_main_v16 (F := Ideal) V0) b init := by
  rw [v16_eq]; exact lay_relay0 (hstart b)
theorem lay_v51 : Lay1 (res_main_v51 (F := Ideal) V0) b (psi1 (xrow V0 b)) := by
  rw [v51_eq]; exact lay_relay1 (rot0 (v10_apply V0 b) (v14_apply V0 b) (lay_v16 hstart V0 b))
theorem lay_v86 : Lay2 (res_main_v86 (F := Ideal) V0) b (psi2 (xrow V0 b)) := by
  rw [v86_eq]; exact lay_relay2 (rot1 (v45_apply V0 b) (v49_apply V0 b) (lay_v51 hstart V0 b))
theorem lay_v120 : Lay3 (res_main_v120 (F := Ideal) V0) b (psi3 (xrow V0 b)) := by
  rw [v120_eq]; exact lay_relay3 (rot2 (v80_apply V0 b) (v84_apply V0 b) (lay_v86 hstart V0 b))
theorem lay_v154 : Lay0 (res_main_v154 (F := Ideal) V0) b (psi4 (xrow V0 b)) := by
  rw [v154_eq]; exact lay_relay4 (rot3 (v115_apply V0 b) (v119_apply V0 b) (lay_v120 hstart V0 b))
theorem lay_v189 : Lay1 (res_main_v189 (F := Ideal) V0) b (psi5 (xrow V0 b) (yrow V0 b)) := by
  rw [v189_eq]; exact lay_relay1 (rot0 (v148_apply V0 b) (v152_apply V0 b) (lay_v154 hstart V0 b))
theorem lay_v224 : Lay2 (res_main_v224 (F := Ideal) V0) b (psi6 (xrow V0 b) (yrow V0 b)) := by
  rw [v224_eq]; exact lay_relay2 (rot1 (v183_apply V0 b) (v187_apply V0 b) (lay_v189 hstart V0 b))
theorem lay_v258 : Lay3 (res_main_v258 (F := Ideal) V0) b (psi7 (xrow V0 b) (yrow V0 b)) := by
  rw [v258_eq]; exact lay_relay3 (rot2 (v218_apply V0 b) (v222_apply V0 b) (lay_v224 hstart V0 b))

end Stages

/-- THE FINAL STATE of the reference: its `[B, 2, 2, 2, 2]` array after the eight rotations is, at row `b` and bits
    `i₁ i₂ i₃ i₄`, the specification's amplitude for rows `b` of the two arguments. -/
theorem final_state
    (hstart : ∀ (b : Fin 1048576) (i1 i2 i3 i4 : Fin 2), start (ix5 b i1 i2 i3 i4) = Cert.Qka.init i1 i2 i3 i4)
    (V0 : Valuation τ sig (Elt Ideal)) (b : Fin 1048576) (i1 i2 i3 i4 : Fin 2) :
    res_main_v280 (F := Ideal) V0 (ix5 b i1 i2 i3 i4)
      = Cert.Qka.amp (Cert.Qka.row (V0 (Proc.devRef .tc main_arg0)) b) (Cert.Qka.row (V0 (Proc.devRef .tc main_arg1)) b) i1 i2 i3 i4 := by
  rw [v280_eq, cast5_apply, amp_eq]
  exact rot3 (v253_apply V0 b) (v257_apply V0 b) (lay_v258 hstart V0 b) i1 i2 i3 i4

end Cert.Qka.Ref

end
-- ==== Proof.RefTail.lean ====
/-
  The start state and the tail of the reference program, read at an index.

  The reference prepares the state |0000⟩ as an array of zeros of shape [B, 16] whose column 0 is overwritten with ones
  (a scatter whose one start index is 0 and whose update window is a whole column), reshaped to [B, 2, 2, 2, 2]. After the
  eight rotations it squares the amplitudes, sums the squares over the three bits other than bit w for each wire w (four
  reductions of a rank-5 array over three axes), and returns the absolute difference of the two sums of each wire, the four
  wires side by side.

  Here: the start state at the index (b, i₁, i₂, i₃, i₄) is the specification's init; each of the four reductions at (b, e)
  is the specification's marginal; the last line at (b, w) is the absolute difference of the two marginals of wire w.
  Only the commutative-monoid laws of addition on the extended reals are used.
-/
import proofs.«109609_j65481071404174_2_alg».proof.Proof.Spec
import proofs.«109609_j65481071404174_2_alg».proof.Proof.Gen.ReferenceIdeal.Run
import Idealize.ShloMosaic.Lib.Pipeline.Value
import Idealize.ShloMosaic.Lib.ValueIdx
import Idealize.ShloMosaic.PureOps.Ideal.Laws

noncomputable section

open scoped BigOperators

namespace Cert.Qka.RefT

open Cert.ReferenceIdeal Cert.ReferenceIdeal.Gen Cert.ReferenceIdeal.Value Idealize.ShloMosaic Idealize.ShloMosaic.ValueIdx Idealize.ShloMosaic.StableHlo

/-! ## The start state -/

/-- A left fold that overwrites, for each `n` of a list in turn, the entry at `h n` with one constant `c`, read at an
    entry no `n` of the list names: the starting value. -/
theorem foldl_set_const_of_forall_ne {ι κ α : Type} {_ : DecidableEq ι} (l : List κ) (h : κ → ι) (c : α) (x : ι → α) (i : ι)
    (hne : ∀ n ∈ l, h n ≠ i) :
    (l.foldl (fun r n => fun i' => if i' = h n then c else r i') x) i = x i := by
  induction l generalizing x with
  | nil => rfl
  | cons a l ih =>
    rw [List.foldl_cons, ih _ (fun n hn => hne n (List.mem_cons_of_mem _ hn))]
    exact if_neg (fun e => hne a List.mem_cons_self e.symm)

/-- The same fold read at an entry some `n` of the list names: the constant. -/
theorem foldl_set_const_of_exists {ι κ α : Type} {_ : DecidableEq ι} (l : List κ) (h : κ → ι) (c : α) (x : ι → α) (i : ι)
    (hex : ∃ n ∈ l, h n = i) :
    (l.foldl (fun r n => fun i' => if i' = h n then c else r i') x) i = c := by
  induction l generalizing x with
  | nil => obtain ⟨n, hn, -⟩ := hex; exact absurd hn List.not_mem_nil
  | cons a l ih =>
    rw [List.foldl_cons]
    by_cases h1 : ∃ n ∈ l, h n = i
    · exact ih _ h1
    · have ha : h a = i := by
        obtain ⟨n, hn, e⟩ := hex
        rcases List.mem_cons.1 hn with rfl | hn
        · exact e
        · exact absurd ⟨n, hn, e⟩ h1
      rw [foldl_set_const_of_forall_ne l h c _ i (fun n hn e => h1 ⟨n, hn, e⟩)]
      exact if_pos ha.symm

/-- A scatter whose body returns the update, whose every update lands inside the operand (update `j` at `g j`) and
    whose updates all hold one value `c`, read at an entry where an update lands: that value. -/
theorem scatter_set_const_of_exists {s si u : Shape} {w : Nat} {α : Type} (d : ScatterDims s si u) (x : s.Idx → α) (idx : IVec si w)
    (upd : u.Idx → α) (c : α) (g : u.Idx → s.Idx) (hres : ∀ j, d.resultIdx? j idx = some (g j)) (hupd : ∀ j, upd j = c)
    (i : s.Idx) (hex : ∃ j, g j = i) :
    Host.scatter d (fun _ b => b) x idx upd i = c := by
  unfold Host.scatter
  simp only [hres, hupd]
  refine foldl_set_const_of_exists _ (fun n => g (u.rowMajor.symm n)) c x i ?_
  obtain ⟨j, hj⟩ := hex
  exact ⟨u.rowMajor j, List.mem_finRange _, by rw [Equiv.symm_apply_apply]; exact hj⟩

/-- The same scatter read at an entry where no update lands: the operand. -/
theorem scatter_set_const_of_forall_ne {s si u : Shape} {w : Nat} {α : Type} (d : ScatterDims s si u) (x : s.Idx → α) (idx : IVec si w)
    (upd : u.Idx → α) (c : α) (g : u.Idx → s.Idx) (hres : ∀ j, d.resultIdx? j idx = some (g j)) (hupd : ∀ j, upd j = c)
    (i : s.Idx) (hne : ∀ j, g j ≠ i) :
    Host.scatter d (fun _ b => b) x idx upd i = x i := by
  unfold Host.scatter
  simp only [hres, hupd]
  exact foldl_set_const_of_forall_ne _ (fun n => g (u.rowMajor.symm n)) c x i (fun n _ => hne _)

/-- The array of zeros of shape [B, 16] with column 0 overwritten by ones. -/
def scat : FVec Ideal S1048576x16 .f32 :=
  Host.scatter scatter_S1048576x16_S1_S1048576_0_1_1_0 (fun _ b => b) (broadcastInDim S1048576x16 ![] bcast_S_S1048576x16 (constant (F := Ideal) S_ .f32 0x00000000#32)) (broadcastInDim S1 ![] bcast_S_S1 (constantI S_ 32 0#32)) (broadcastInDim S1048576 ![] bcast_S_S1048576 (constant (F := Ideal) S_ .f32 0x3F800000#32))

/-- The window starts at 0 on both axes: the row axis is not a scattered axis, and the one start index is the word 0. -/
theorem start_eq (j : S1048576.Idx) (a : Fin 2) :
    scatter_S1048576x16_S1_S1048576_0_1_1_0.start j (broadcastInDim S1 ![] bcast_S_S1 (constantI S_ 32 0#32)) a = 0 := by
  match a with
  | ⟨0, _⟩ => rfl
  | ⟨1, _⟩ => rfl

/-- The update at row `j` lands at entry (j, 0). -/
theorem resultIdx_eq (j : S1048576.Idx) :
    scatter_S1048576x16_S1_S1048576_0_1_1_0.resultIdx? j (broadcastInDim S1 ![] bcast_S_S1 (constantI S_ 32 0#32))
      = some (ix2 (j 0) (0 : Fin 16)) := by
  have hw : ∀ a : Fin 2, (scatter_S1048576x16_S1_S1048576_0_1_1_0.start j (broadcastInDim S1 ![] bcast_S_S1 (constantI S_ 32 0#32)) a
      + (scatter_S1048576x16_S1_S1048576_0_1_1_0.window j a : Int)) = (((ix2 (j 0) (0 : Fin 16) : S1048576x16.Idx) a).val : Int) := by
    intro a
    rw [start_eq, zero_add]
    match a with
    | ⟨0, _⟩ => rfl
    | ⟨1, _⟩ => rfl
  unfold ScatterDims.resultIdx?
  rw [dif_pos]
  · refine congrArg some (funext fun a => Fin.ext ?_)
    show (scatter_S1048576x16_S1_S1048576_0_1_1_0.start j (broadcastInDim S1 ![] bcast_S_S1 (constantI S_ 32 0#32)) a
      + (scatter_S1048576x16_S1_S1048576_0_1_1_0.window j a : Int)).toNat = _
    rw [hw a]; rfl
  · intro a
    rw [hw a]
    exact ⟨Int.natCast_nonneg _, Int.ofNat_lt.2 (Fin.isLt ((ix2 (j 0) (0 : Fin 16) : S1048576x16.Idx) a))⟩

/-- Entry (b, c) of it: one in column 0, zero elsewhere. -/
theorem scat_apply (b : Fin 1048576) (c : Fin 16) :
    scat (ix2 b c) = if c = 0 then Ideal.ofBits .f32 0x3F800000#32 else Ideal.ofBits .f32 0x00000000#32 := by
  unfold scat
  by_cases hc : c = 0
  · subst hc
    rw [if_pos rfl]
    exact scatter_set_const_of_exists scatter_S1048576x16_S1_S1048576_0_1_1_0 _ _ _ (Ideal.ofBits .f32 0x3F800000#32)
      (fun j => ix2 (j 0) (0 : Fin 16)) resultIdx_eq (fun _ => rfl) _ ⟨ix1 b, rfl⟩
  · rw [if_neg hc]
    exact scatter_set_const_of_forall_ne scatter_S1048576x16_S1_S1048576_0_1_1_0 _ _ _ (Ideal.ofBits .f32 0x3F800000#32)
      (fun j => ix2 (j 0) (0 : Fin 16)) resultIdx_eq (fun _ => rfl) _ (fun j e => hc (congrFun e 1).symm)

/-- The start state of the reference: that array reshaped to [B, 2, 2, 2, 2]. -/
def start : FVec Ideal S1048576x2x2x2x2 .f32 :=
  shapeCast _ (Host.scatter scatter_S1048576x16_S1_S1048576_0_1_1_0 (fun _ b => b) (broadcastInDim S1048576x16 ![] bcast_S_S1048576x16 (constant (F := Ideal) S_ .f32 0x00000000#32)) (broadcastInDim S1 ![] bcast_S_S1 (constantI S_ 32 0#32)) (broadcastInDim S1048576 ![] bcast_S_S1048576 (constant (F := Ideal) S_ .f32 0x3F800000#32))) shapeCasts_S1048576x16_S1048576x2x2x2x2

/-- The start state at (b, i₁, i₂, i₃, i₄) is entry (b, 8·i₁ + 4·i₂ + 2·i₃ + i₄) of the [B, 16] array. -/
theorem start_eq_scat (b : Fin 1048576) (i1 i2 i3 i4 : Fin 2) :
    start (ix5 b i1 i2 i3 i4) = scat (ix2 b ⟨8 * i1.val + 4 * i2.val + 2 * i3.val + i4.val, by omega⟩) := by
  unfold start
  refine shapeCast_apply _ _ _ _ ?_
  rw [Shape.rowMajor_val_two, Shape.rowMajor_val_five]
  show b.val * 16 + (8 * i1.val + 4 * i2.val + 2 * i3.val + i4.val)
    = (((b.val * 2 + i1.val) * 2 + i2.val) * 2 + i3.val) * 2 + i4.val
  omega

/-- The start state at (b, i₁, i₂, i₃, i₄) is the specification's |0000⟩: one at all bits zero, zero elsewhere. -/
theorem start_apply (b : Fin 1048576) (i1 i2 i3 i4 : Fin 2) :
    start (ix5 b i1 i2 i3 i4) = Cert.Qka.init i1 i2 i3 i4 := by
  have hiff : ((⟨8 * i1.val + 4 * i2.val + 2 * i3.val + i4.val, by omega⟩ : Fin 16) = 0)
      ↔ (i1 = 0 ∧ i2 = 0 ∧ i3 = 0 ∧ i4 = 0) := by
    constructor
    · intro hc
      have hv : 8 * i1.val + 4 * i2.val + 2 * i3.val + i4.val = 0 := congrArg Fin.val hc
      exact ⟨Fin.ext (show i1.val = 0 by omega), Fin.ext (show i2.val = 0 by omega), Fin.ext (show i3.val = 0 by omega),
        Fin.ext (show i4.val = 0 by omega)⟩
    · rintro ⟨rfl, rfl, rfl, rfl⟩
      rfl
  rw [start_eq_scat, scat_apply]
  exact if_congr hiff rfl rfl

/-! ## The four marginal sums -/

/-- A rank-5 index set is the product of its coordinate ranges, in order. -/
def idxEquiv5 {n0 n1 n2 n3 n4 : Nat} :
    (⟨5, ![n0, n1, n2, n3, n4]⟩ : Shape).Idx ≃ Fin n0 × Fin n1 × Fin n2 × Fin n3 × Fin n4 where
  toFun i := (i 0, i 1, i 2, i 3, i 4)
  invFun p := ix5 p.1 p.2.1 p.2.2.1 p.2.2.2.1 p.2.2.2.2
  left_inv i := (eq_ix5 i).symm
  right_inv _ := rfl

/-- A sum over a rank-5 index set is the fivefold sum over the coordinates, the first coordinate outermost. -/
theorem sum_idx5 {M : Type*} [AddCommMonoid M] {n0 n1 n2 n3 n4 : Nat} (f : (⟨5, ![n0, n1, n2, n3, n4]⟩ : Shape).Idx → M) :
    ∑ i, f i = ∑ a : Fin n0, ∑ b : Fin n1, ∑ c : Fin n2, ∑ d : Fin n3, ∑ e : Fin n4, f (ix5 a b c d e) := by
  rw [← Equiv.sum_comp (idxEquiv5 (n0 := n0) (n1 := n1) (n2 := n2) (n3 := n3) (n4 := n4)).symm f, Fintype.sum_prod_type]
  simp only [Fintype.sum_prod_type]
  rfl

/-- A sum over the rank-5 indices that satisfy `p`, where `p` fixes the batch coordinate at `b` and asks `q` of the four
    bits: the batch coordinate drops out, leaving the sum over the four bits of the terms where `q` holds. -/
theorem sum_filter_batch (P : S1048576x2x2x2x2.Idx → EReal) (p : S1048576x2x2x2x2.Idx → Prop) [DecidablePred p]
    (b : Fin 1048576) (q : Fin 2 → Fin 2 → Fin 2 → Fin 2 → Prop) [∀ i1 i2 i3 i4, Decidable (q i1 i2 i3 i4)]
    (key : ∀ a i1 i2 i3 i4, p (ix5 a i1 i2 i3 i4) ↔ (a = b ∧ q i1 i2 i3 i4)) :
    ∑ i ∈ Finset.univ.filter p, P i
      = ∑ i1 : Fin 2, ∑ i2 : Fin 2, ∑ i3 : Fin 2, ∑ i4 : Fin 2, if q i1 i2 i3 i4 then P (ix5 b i1 i2 i3 i4) else 0 := by
  rw [Finset.sum_filter, sum_idx5, Finset.sum_eq_single b]
  · refine Finset.sum_congr rfl fun i1 _ => Finset.sum_congr rfl fun i2 _ => Finset.sum_congr rfl fun i3 _ =>
      Finset.sum_congr rfl fun i4 _ => ?_
    by_cases hq : q i1 i2 i3 i4
    · rw [if_pos ((key _ _ _ _ _).2 ⟨rfl, hq⟩), if_pos hq]
    · rw [if_neg (fun hp => hq ((key _ _ _ _ _).1 hp).2), if_neg hq]
  · intro a _ hab
    refine Finset.sum_eq_zero fun i1 _ => Finset.sum_eq_zero fun i2 _ => Finset.sum_eq_zero fun i3 _ =>
      Finset.sum_eq_zero fun i4 _ => ?_
    rw [if_neg (fun hp => hab ((key _ _ _ _ _).1 hp).1)]
  · intro hb
    exact absurd (Finset.mem_univ b) hb

/-- The sum over bits 1, 2, 3 (the initial value 0 added first) at (b, e): bit 0 held at `e`, the other three summed. -/
theorem reduce_w0 (P : FVec Ideal S1048576x2x2x2x2 .f32) (b : Fin 1048576) (e : Fin 2) :
    Host.reduceAdd P (constant (F := Ideal) S_ .f32 0x00000000#32) reducesTo_S1048576x2x2x2x2_S1048576x2_d2_3_4 h_S_ (ix2 b e)
      = ∑ i2 : Fin 2, ∑ i3 : Fin 2, ∑ i4 : Fin 2, P (ix5 b e i2 i3 i4) := by
  show Ideal.hostReduceAdd reducesTo_S1048576x2x2x2x2_S1048576x2_d2_3_4 P (Ideal.ofBits .f32 0x00000000#32) (ix2 b e) = _
  unfold Ideal.hostReduceAdd
  rw [Ideal.ofBits_zero_f32, zero_add,
    sum_filter_batch P _ b (fun i1 _ _ _ => i1 = e) (fun a i1 i2 i3 i4 => by
      constructor
      · intro h
        exact ⟨Fin.ext (congrArg (fun f : S1048576x2.Idx => (f 0).val) h), Fin.ext (congrArg (fun f : S1048576x2.Idx => (f 1).val) h)⟩
      · rintro ⟨rfl, rfl⟩
        funext c
        match c with
        | ⟨0, _⟩ => rfl
        | ⟨1, _⟩ => rfl)]
  fin_cases e <;> simp [Fin.sum_univ_two]

/-- The sum over bits 0, 2, 3 at (b, e): bit 1 held at `e`. -/
theorem reduce_w1 (P : FVec Ideal S1048576x2x2x2x2 .f32) (b : Fin 1048576) (e : Fin 2) :
    Host.reduceAdd P (constant (F := Ideal) S_ .f32 0x00000000#32) reducesTo_S1048576x2x2x2x2_S1048576x2_d1_3_4 h_S_ (ix2 b e)
      = ∑ i1 : Fin 2, ∑ i3 : Fin 2, ∑ i4 : Fin 2, P (ix5 b i1 e i3 i4) := by
  show Ideal.hostReduceAdd reducesTo_S1048576x2x2x2x2_S1048576x2_d1_3_4 P (Ideal.ofBits .f32 0x00000000#32) (ix2 b e) = _
  unfold Ideal.hostReduceAdd
  rw [Ideal.ofBits_zero_f32, zero_add,
    sum_filter_batch P _ b (fun _ i2 _ _ => i2 = e) (fun a i1 i2 i3 i4 => by
      constructor
      · intro h
        exact ⟨Fin.ext (congrArg (fun f : S1048576x2.Idx => (f 0).val) h), Fin.ext (congrArg (fun f : S1048576x2.Idx => (f 1).val) h)⟩
      · rintro ⟨rfl, rfl⟩
        funext c
        match c with
        | ⟨0, _⟩ => rfl
        | ⟨1, _⟩ => rfl)]
  fin_cases e <;> simp [Fin.sum_univ_two]

/-- The sum over bits 0, 1, 3 at (b, e): bit 2 held at `e`. -/
theorem reduce_w2 (P : FVec Ideal S1048576x2x2x2x2 .f32) (b : Fin 1048576) (e : Fin 2) :
    Host.reduceAdd P (constant (F := Ideal) S_ .f32 0x00000000#32) reducesTo_S1048576x2x2x2x2_S1048576x2_d1_2_4 h_S_ (ix2 b e)
      = ∑ i1 : Fin 2, ∑ i2 : Fin 2, ∑ i4 : Fin 2, P (ix5 b i1 i2 e i4) := by
  show Ideal.hostReduceAdd reducesTo_S1048576x2x2x2x2_S1048576x2_d1_2_4 P (Ideal.ofBits .f32 0x00000000#32) (ix2 b e) = _
  unfold Ideal.hostReduceAdd
  rw [Ideal.ofBits_zero_f32, zero_add,
    sum_filter_batch P _ b (fun _ _ i3 _ => i3 = e) (fun a i1 i2 i3 i4 => by
      constructor
      · intro h
        exact ⟨Fin.ext (congrArg (fun f : S1048576x2.Idx => (f 0).val) h), Fin.ext (congrArg (fun f : S1048576x2.Idx => (f 1).val) h)⟩
      · rintro ⟨rfl, rfl⟩
        funext c
        match c with
        | ⟨0, _⟩ => rfl
        | ⟨1, _⟩ => rfl)]
  fin_cases e <;> simp [Fin.sum_univ_two]

/-- The sum over bits 0, 1, 2 at (b, e): bit 3 held at `e`. -/
theorem reduce_w3 (P : FVec Ideal S1048576x2x2x2x2 .f32) (b : Fin 1048576) (e : Fin 2) :
    Host.reduceAdd P (constant (F := Ideal) S_ .f32 0x00000000#32) reducesTo_S1048576x2x2x2x2_S1048576x2_d1_2_3 h_S_ (ix2 b e)
      = ∑ i1 : Fin 2, ∑ i2 : Fin 2, ∑ i3 : Fin 2, P (ix5 b i1 i2 i3 e) := by
  show Ideal.hostReduceAdd reducesTo_S1048576x2x2x2x2_S1048576x2_d1_2_3 P (Ideal.ofBits .f32 0x00000000#32) (ix2 b e) = _
  unfold Ideal.hostReduceAdd
  rw [Ideal.ofBits_zero_f32, zero_add,
    sum_filter_batch P _ b (fun _ _ _ i4 => i4 = e) (fun a i1 i2 i3 i4 => by
      constructor
      · intro h
        exact ⟨Fin.ext (congrArg (fun f : S1048576x2.Idx => (f 0).val) h), Fin.ext (congrArg (fun f : S1048576x2.Idx => (f 1).val) h)⟩
      · rintro ⟨rfl, rfl⟩
        funext c
        match c with
        | ⟨0, _⟩ => rfl
        | ⟨1, _⟩ => rfl)]
  fin_cases e <;> simp [Fin.sum_univ_two]

/-! ## The last line -/

/-- One piece of the last concatenation: the difference of the two columns of a [B, 2] array, as a [B, 1] column. -/
def piece (R : FVec Ideal S1048576x2 .f32) : FVec Ideal S1048576x1 .f32 :=
  broadcastInDim S1048576x1 ![0] bcast_S1048576_S1048576x1_0 (subf (shapeCast _ (extractStridedSlice S1048576x1 ![0, 0] R slices_S1048576x2_S1048576x1_0_0) shapeCasts_S1048576x1_S1048576) (shapeCast _ (extractStridedSlice S1048576x1 ![0, 1] R slices_S1048576x2_S1048576x1_0_1) shapeCasts_S1048576x1_S1048576))

/-- The piece at row `b`: column 0 minus column 1. -/
theorem piece_apply (R : FVec Ideal S1048576x2 .f32) (b : Fin 1048576) :
    piece R (ix2 b (0 : Fin 1)) = R (ix2 b 0) - R (ix2 b 1) := by
  unfold piece
  refine (broadcastInDim_apply _ _ _ (ix2 b (0 : Fin 1)) (ix1 b) (fun a => ?_)).trans ?_
  · match a with
    | ⟨0, _⟩ => rfl
  rw [subf_apply]
  congr 1
  · refine (shapeCast_apply _ _ (ix1 b) (ix2 b (0 : Fin 1)) ?_).trans ?_
    · rw [Shape.rowMajor_val_two, Shape.rowMajor_val_one]
      show b.val * 1 + 0 = b.val
      omega
    · refine extractStridedSlice_apply _ _ _ _ (ix2 b (0 : Fin 2)) (fun a => ?_)
      match a with
      | ⟨0, _⟩ => show b.val = 0 + b.val; omega
      | ⟨1, _⟩ => rfl
  · refine (shapeCast_apply _ _ (ix1 b) (ix2 b (0 : Fin 1)) ?_).trans ?_
    · rw [Shape.rowMajor_val_two, Shape.rowMajor_val_one]
      show b.val * 1 + 0 = b.val
      omega
    · refine extractStridedSlice_apply _ _ _ _ (ix2 b (1 : Fin 2)) (fun a => ?_)
      match a with
      | ⟨0, _⟩ => show b.val = 0 + b.val; omega
      | ⟨1, _⟩ => rfl

/-- The reference's result as a function of the four reduced arrays: the absolute value of the four pieces side by side. -/
def tailTerm (R0 R1 R2 R3 : FVec Ideal S1048576x2 .f32) : FVec Ideal S1048576x4 .f32 :=
  Host.absf (concatenate S1048576x4 1 [⟨S1048576x1, (broadcastInDim S1048576x1 ![0] bcast_S1048576_S1048576x1_0 (subf (shapeCast _ (extractStridedSlice S1048576x1 ![0, 0] R0 slices_S1048576x2_S1048576x1_0_0) shapeCasts_S1048576x1_S1048576) (shapeCast _ (extractStridedSlice S1048576x1 ![0, 1] R0 slices_S1048576x2_S1048576x1_0_1) shapeCasts_S1048576x1_S1048576)))⟩, ⟨S1048576x1, (broadcastInDim S1048576x1 ![0] bcast_S1048576_S1048576x1_0 (subf (shapeCast _ (extractStridedSlice S1048576x1 ![0, 0] R1 slices_S1048576x2_S1048576x1_0_0) shapeCasts_S1048576x1_S1048576) (shapeCast _ (extractStridedSlice S1048576x1 ![0, 1] R1 slices_S1048576x2_S1048576x1_0_1) shapeCasts_S1048576x1_S1048576)))⟩, ⟨S1048576x1, (broadcastInDim S1048576x1 ![0] bcast_S1048576_S1048576x1_0 (subf (shapeCast _ (extractStridedSlice S1048576x1 ![0, 0] R2 slices_S1048576x2_S1048576x1_0_0) shapeCasts_S1048576x1_S1048576) (shapeCast _ (extractStridedSlice S1048576x1 ![0, 1] R2 slices_S1048576x2_S1048576x1_0_1) shapeCasts_S1048576x1_S1048576)))⟩, ⟨S1048576x1, (broadcastInDim S1048576x1 ![0] bcast_S1048576_S1048576x1_0 (subf (shapeCast _ (extractStridedSlice S1048576x1 ![0, 0] R3 slices_S1048576x2_S1048576x1_0_0) shapeCasts_S1048576x1_S1048576) (shapeCast _ (extractStridedSlice S1048576x1 ![0, 1] R3 slices_S1048576x2_S1048576x1_0_1) shapeCasts_S1048576x1_S1048576)))⟩] concatenates_S1048576x1_S1048576x1_S1048576x1_S1048576x1_S1048576x4_d1)

/-- The four pieces, each with its shape. -/
abbrev pieces (R0 R1 R2 R3 : FVec Ideal S1048576x2 .f32) : List ((s : Shape) × (s.Idx → Ideal .f32)) :=
  [⟨S1048576x1, piece R0⟩, ⟨S1048576x1, piece R1⟩, ⟨S1048576x1, piece R2⟩, ⟨S1048576x1, piece R3⟩]

/-- Entry (b, 0) of it: the absolute difference of the two columns of the array in place 0 at row `b`. -/
theorem tailTerm_apply_0 (R0 R1 R2 R3 : FVec Ideal S1048576x2 .f32) (b : Fin 1048576) :
    tailTerm R0 R1 R2 R3 (ix2 b (0 : Fin 4))
      = FloatOps.absf (F := Ideal) (φ := .f32) (R0 (ix2 b 0) - R0 (ix2 b 1)) := by
  show FloatOps.absf (F := Ideal) (φ := .f32) (concatenate S1048576x4 1 (pieces R0 R1 R2 R3) concatenates_S1048576x1_S1048576x1_S1048576x1_S1048576x1_S1048576x4_d1 (ix2 b (0 : Fin 4))) = _
  congr 1
  refine (concatenate_apply_piece (t := S1048576x4) (1 : Fin 2) (pieces R0 R1 R2 R3) concatenates_S1048576x1_S1048576x1_S1048576x1_S1048576x1_S1048576x4_d1 (ix2 b (0 : Fin 4)) 0 (show 0 < 4 by omega) S1048576x1 (piece R0) rfl rfl 0 rfl (ix2 b (0 : Fin 1)) (fun a ha => ?_) rfl).trans (piece_apply R0 b)
  match a with
  | ⟨0, _⟩ => rfl
  | ⟨1, _⟩ => exact absurd rfl ha

/-- Entry (b, 1) of it: the absolute difference of the two columns of the array in place 1 at row `b`. -/
theorem tailTerm_apply_1 (R0 R1 R2 R3 : FVec Ideal S1048576x2 .f32) (b : Fin 1048576) :
    tailTerm R0 R1 R2 R3 (ix2 b (1 : Fin 4))
      = FloatOps.absf (F := Ideal) (φ := .f32) (R1 (ix2 b 0) - R1 (ix2 b 1)) := by
  show FloatOps.absf (F := Ideal) (φ := .f32) (concatenate S1048576x4 1 (pieces R0 R1 R2 R3) concatenates_S1048576x1_S1048576x1_S1048576x1_S1048576x1_S1048576x4_d1 (ix2 b (1 : Fin 4))) = _
  congr 1
  refine (concatenate_apply_piece (t := S1048576x4) (1 : Fin 2) (pieces R0 R1 R2 R3) concatenates_S1048576x1_S1048576x1_S1048576x1_S1048576x1_S1048576x4_d1 (ix2 b (1 : Fin 4)) 1 (show 1 < 4 by omega) S1048576x1 (piece R1) rfl rfl 1 rfl (ix2 b (0 : Fin 1)) (fun a ha => ?_) rfl).trans (piece_apply R1 b)
  match a with
  | ⟨0, _⟩ => rfl
  | ⟨1, _⟩ => exact absurd rfl ha

/-- Entry (b, 2) of it: the absolute difference of the two columns of the array in place 2 at row `b`. -/
theorem tailTerm_apply_2 (R0 R1 R2 R3 : FVec Ideal S1048576x2 .f32) (b : Fin 1048576) :
    tailTerm R0 R1 R2 R3 (ix2 b (2 : Fin 4))
      = FloatOps.absf (F := Ideal) (φ := .f32) (R2 (ix2 b 0) - R2 (ix2 b 1)) := by
  show FloatOps.absf (F := Ideal) (φ := .f32) (concatenate S1048576x4 1 (pieces R0 R1 R2 R3) concatenates_S1048576x1_S1048576x1_S1048576x1_S1048576x1_S1048576x4_d1 (ix2 b (2 : Fin 4))) = _
  congr 1
  refine (concatenate_apply_piece (t := S1048576x4) (1 : Fin 2) (pieces R0 R1 R2 R3) concatenates_S1048576x1_S1048576x1_S1048576x1_S1048576x1_S1048576x4_d1 (ix2 b (2 : Fin 4)) 2 (show 2 < 4 by omega) S1048576x1 (piece R2) rfl rfl 2 rfl (ix2 b (0 : Fin 1)) (fun a ha => ?_) rfl).trans (piece_apply R2 b)
  match a with
  | ⟨0, _⟩ => rfl
  | ⟨1, _⟩ => exact absurd rfl ha

/-- Entry (b, 3) of it: the absolute difference of the two columns of the array in place 3 at row `b`. -/
theorem tailTerm_apply_3 (R0 R1 R2 R3 : FVec Ideal S1048576x2 .f32) (b : Fin 1048576) :
    tailTerm R0 R1 R2 R3 (ix2 b (3 : Fin 4))
      = FloatOps.absf (F := Ideal) (φ := .f32) (R3 (ix2 b 0) - R3 (ix2 b 1)) := by
  show FloatOps.absf (F := Ideal) (φ := .f32) (concatenate S1048576x4 1 (pieces R0 R1 R2 R3) concatenates_S1048576x1_S1048576x1_S1048576x1_S1048576x1_S1048576x4_d1 (ix2 b (3 : Fin 4))) = _
  congr 1
  refine (concatenate_apply_piece (t := S1048576x4) (1 : Fin 2) (pieces R0 R1 R2 R3) concatenates_S1048576x1_S1048576x1_S1048576x1_S1048576x1_S1048576x4_d1 (ix2 b (3 : Fin 4)) 3 (show 3 < 4 by omega) S1048576x1 (piece R3) rfl rfl 3 rfl (ix2 b (0 : Fin 1)) (fun a ha => ?_) rfl).trans (piece_apply R3 b)
  match a with
  | ⟨0, _⟩ => rfl
  | ⟨1, _⟩ => exact absurd rfl ha

/-- Entry (b, w) of it: the absolute difference of the two columns of the w-th array at row `b`. -/
theorem tailTerm_apply (R0 R1 R2 R3 : FVec Ideal S1048576x2 .f32) (b : Fin 1048576) (w : Fin 4) :
    tailTerm R0 R1 R2 R3 (ix2 b w)
      = FloatOps.absf (F := Ideal) (φ := .f32) ((![R0, R1, R2, R3] w) (ix2 b 0) - (![R0, R1, R2, R3] w) (ix2 b 1)) := by
  match w with
  | ⟨0, _⟩ => exact tailTerm_apply_0 R0 R1 R2 R3 b
  | ⟨1, _⟩ => exact tailTerm_apply_1 R0 R1 R2 R3 b
  | ⟨2, _⟩ => exact tailTerm_apply_2 R0 R1 R2 R3 b
  | ⟨3, _⟩ => exact tailTerm_apply_3 R0 R1 R2 R3 b

/-! ## The tail: marginals, then the last line -/

/-- The reference's result from the squared amplitudes `P`, at (b, w): the absolute difference of the two marginals of
    wire `w` of row `b`. -/
theorem tail_apply (P : FVec Ideal S1048576x2x2x2x2 .f32) (b : Fin 1048576) (w : Fin 4) :
    tailTerm (Host.reduceAdd P (constant (F := Ideal) S_ .f32 0x00000000#32) reducesTo_S1048576x2x2x2x2_S1048576x2_d2_3_4 h_S_)
        (Host.reduceAdd P (constant (F := Ideal) S_ .f32 0x00000000#32) reducesTo_S1048576x2x2x2x2_S1048576x2_d1_3_4 h_S_)
        (Host.reduceAdd P (constant (F := Ideal) S_ .f32 0x00000000#32) reducesTo_S1048576x2x2x2x2_S1048576x2_d1_2_4 h_S_)
        (Host.reduceAdd P (constant (F := Ideal) S_ .f32 0x00000000#32) reducesTo_S1048576x2x2x2x2_S1048576x2_d1_2_3 h_S_) (ix2 b w)
      = FloatOps.absf (F := Ideal) (φ := .f32)
          (Cert.Qka.marg (fun i1 i2 i3 i4 => P (ix5 b i1 i2 i3 i4)) w 0 - Cert.Qka.marg (fun i1 i2 i3 i4 => P (ix5 b i1 i2 i3 i4)) w 1) := by
  match w with
  | ⟨0, _⟩ =>
    refine (tailTerm_apply_0 _ _ _ _ b).trans ?_
    rw [reduce_w0, reduce_w0]
    rfl
  | ⟨1, _⟩ =>
    refine (tailTerm_apply_1 _ _ _ _ b).trans ?_
    rw [reduce_w1, reduce_w1]
    rfl
  | ⟨2, _⟩ =>
    refine (tailTerm_apply_2 _ _ _ _ b).trans ?_
    rw [reduce_w2, reduce_w2]
    rfl
  | ⟨3, _⟩ =>
    refine (tailTerm_apply_3 _ _ _ _ b).trans ?_
    rw [reduce_w3, reduce_w3]
    rfl

end Cert.Qka.RefT

end
-- ==== Proof.RefJoin.lean ====
/-
  The reference's result, joined: the final state of the eight rotations (RefStages) is squared, summed over the
  three bits other than each wire with that wire's bit held at 0 and at 1, and the absolute difference of the two
  sums is the result's entry. This file puts the three parts together: the result array of the reference is the
  specification's `G` of the two arguments.
-/
import proofs.«109609_j65481071404174_2_alg».proof.Proof.RefStages
import proofs.«109609_j65481071404174_2_alg».proof.Proof.RefTail

noncomputable section

namespace Cert.Qka.Ref

open Cert.ReferenceIdeal Cert.ReferenceIdeal.Gen Cert.ReferenceIdeal.Value Idealize.ShloMosaic Idealize.ShloMosaic.ValueIdx Idealize.ShloMosaic.StableHlo Idealize.ShloMosaic.TcCoe Idealize.SL.Sem

/-- The start state the stages begin from is the one read in the tail's file: the same term. -/
theorem start_eq : start = Cert.Qka.RefT.start := rfl

/-- The start state is |0000⟩ on every row. -/
theorem start_apply (b : Fin 1048576) (i1 i2 i3 i4 : Fin 2) : start (ix5 b i1 i2 i3 i4) = Cert.Qka.init i1 i2 i3 i4 := by
  rw [start_eq]
  exact Cert.Qka.RefT.start_apply b i1 i2 i3 i4

/-- A square read at an index where the operand is known. -/
theorem sq_of_eq {A : FVec Ideal S1048576x2x2x2x2 .f32} {j : S1048576x2x2x2x2.Idx} {a : EReal} (h : A j = a) :
    mulf A A j = a * a := by
  rw [mulf_apply, h]

/-- The squared amplitudes of row `b` are the specification's `prob`. -/
theorem sq_apply (V0 : Valuation τ sig (Elt Ideal)) (b : Fin 1048576) :
    (fun i1 i2 i3 i4 : Fin 2 => res_main_v281 (F := Ideal) V0 (ix5 b i1 i2 i3 i4))
      = Cert.Qka.prob (Cert.Qka.row (V0 (Proc.devRef .tc main_arg0)) b) (Cert.Qka.row (V0 (Proc.devRef .tc main_arg1)) b) := by
  funext i1 i2 i3 i4
  exact sq_of_eq (final_state start_apply V0 b i1 i2 i3 i4)

/-- THE REFERENCE'S RESULT is the specification's `G` of the two arguments. -/
theorem result_eq (V0 : Valuation τ sig (Elt Ideal)) :
    Host.absf (concatenate S1048576x4 1 [⟨S1048576x1, (broadcastInDim S1048576x1 ![0] bcast_S1048576_S1048576x1_0 (subf (shapeCast _ (extractStridedSlice S1048576x1 ![0, 0] (res_main_v282 V0) slices_S1048576x2_S1048576x1_0_0) shapeCasts_S1048576x1_S1048576) (shapeCast _ (extractStridedSlice S1048576x1 ![0, 1] (res_main_v282 V0) slices_S1048576x2_S1048576x1_0_1) shapeCasts_S1048576x1_S1048576)))⟩, ⟨S1048576x1, (broadcastInDim S1048576x1 ![0] bcast_S1048576_S1048576x1_0 (subf (shapeCast _ (extractStridedSlice S1048576x1 ![0, 0] (res_main_v288 V0) slices_S1048576x2_S1048576x1_0_0) shapeCasts_S1048576x1_S1048576) (shapeCast _ (extractStridedSlice S1048576x1 ![0, 1] (res_main_v288 V0) slices_S1048576x2_S1048576x1_0_1) shapeCasts_S1048576x1_S1048576)))⟩, ⟨S1048576x1, (broadcastInDim S1048576x1 ![0] bcast_S1048576_S1048576x1_0 (subf (shapeCast _ (extractStridedSlice S1048576x1 ![0, 0] (res_main_v294 V0) slices_S1048576x2_S1048576x1_0_0) shapeCasts_S1048576x1_S1048576) (shapeCast _ (extractStridedSlice S1048576x1 ![0, 1] (res_main_v294 V0) slices_S1048576x2_S1048576x1_0_1) shapeCasts_S1048576x1_S1048576)))⟩, ⟨S1048576x1, (broadcastInDim S1048576x1 ![0] bcast_S1048576_S1048576x1_0 (subf (shapeCast _ (extractStridedSlice S1048576x1 ![0, 0] (res_main_v300 V0) slices_S1048576x2_S1048576x1_0_0) shapeCasts_S1048576x1_S1048576) (shapeCast _ (extractStridedSlice S1048576x1 ![0, 1] (res_main_v300 V0) slices_S1048576x2_S1048576x1_0_1) shapeCasts_S1048576x1_S1048576)))⟩] concatenates_S1048576x1_S1048576x1_S1048576x1_S1048576x1_S1048576x4_d1)
      = Cert.Qka.G (V0 (Proc.devRef .tc main_arg0)) (V0 (Proc.devRef .tc main_arg1)) := by
  funext j
  obtain ⟨b, w, rfl⟩ : ∃ (b : Fin 1048576) (w : Fin 4), j = ix2 b w := ⟨j 0, j 1, eq_ix2 j⟩
  rw [G_apply]
  refine (Cert.Qka.RefT.tail_apply (res_main_v281 (F := Ideal) V0) b w).trans ?_
  rw [sq_apply V0 b]
  rfl

/-- The contents a run starts from are the launch memory's, buffer by buffer. -/
example (m : (ℓ : Loc nD τ sig) → Buf (Elt Ideal) ℓ) (c : Dev nD) :
    launchContents m c (Proc.devRef .tc main_arg0) = m ((c.tc : Thread nD τ).loc main_arg0) := rfl
example (m : (ℓ : Loc nD τ sig) → Buf (Elt Ideal) ℓ) (c : Dev nD) :
    launchContents m c (Proc.devRef .tc main_arg1) = m ((c.tc : Thread nD τ).loc main_arg1) := rfl

end Cert.Qka.Ref

end
-- ==== Proof.lean ====
/-
  The proof of `Cert.Claim`: the three frames, `preserves` and `algebraic`.

  Both programs compute, for every row `b` of the batch and every wire `w`, the absolute expectation |⟨Z_w⟩| of the
  four-qubit state prepared from |0000⟩ by the rotations RY(x[b, k]) on wire k = 0 … 3 and then RY(y[b, k]) on wire
  k = 0 … 3 — the function `Cert.Qka.G` of Proof/Spec.lean. The kernel does it on lane-dense [64, 128] values, 8192 rows per
  grid point, with sixteen amplitudes held as separate vectors (Proof/KernelCols, KernelTail, KernelBody, KernelValue: the
  result array after the run is `G x y`); the reference on a [B, 2, 2, 2, 2] array, moving the rotated wire's axis last for
  each gate (Proof/RefStages: the final state; Proof/RefTail: the start state and the marginal sums; Proof/RefJoin: its
  result is `G x y`). The two agree gate by gate in the order of every product, sum and difference, so nothing about the
  extended reals is used beyond the associativity of + in the eight-term marginal sums and 0 + a = a for the
  reference's reduction; in particular the precondition (finite inputs) is never opened.
  The frames of the two kernels are the generated frame certificates, taken from copies in which the body's stored value is
  written with its repeated sub-terms bound once (Proof/FrameKernel, Proof/FrameKernelIdeal; Proof/ValueKernelIdeal re-posts the
  frame run over the latter); the reference's frame is its generated run with the result
  dropped; the ideal pass rewrote nothing, so `preserves` is `True`.
-/
import proofs.«109609_j65481071404174_2_alg».proof.Defs
import proofs.«109609_j65481071404174_2_alg».proof.Proof.Gen.Kernel
import proofs.«109609_j65481071404174_2_alg».proof.Proof.Gen.Kernel.Skeleton
import proofs.«109609_j65481071404174_2_alg».proof.Proof.Gen.Kernel.Launch
import proofs.«109609_j65481071404174_2_alg».proof.Proof.Gen.Kernel.Points
import proofs.«109609_j65481071404174_2_alg».proof.Proof.Gen.KernelIdeal
import proofs.«109609_j65481071404174_2_alg».proof.Proof.Gen.KernelIdeal.Skeleton
import proofs.«109609_j65481071404174_2_alg».proof.Proof.Gen.KernelIdeal.Launch
import proofs.«109609_j65481071404174_2_alg».proof.Proof.Gen.KernelIdeal.Points
import proofs.«109609_j65481071404174_2_alg».proof.Proof.Gen.ReferenceIdeal
import proofs.«109609_j65481071404174_2_alg».proof.Proof.Gen.Pre_finite_inputs
import proofs.«109609_j65481071404174_2_alg».proof.Proof.FrameKernel
import proofs.«109609_j65481071404174_2_alg».proof.Proof.FrameKernelIdeal
import proofs.«109609_j65481071404174_2_alg».proof.Proof.ValueKernelIdeal
import proofs.«109609_j65481071404174_2_alg».proof.Proof.Gen.ReferenceIdeal.Run
import proofs.«109609_j65481071404174_2_alg».proof.Proof.KernelValue
import proofs.«109609_j65481071404174_2_alg».proof.Proof.RefJoin
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.GenP.frame m ρ

theorem frame_kernelIdeal : Cert.frame_KernelIdeal := fun m ρ _ => Cert.KernelIdeal.GenP.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both runs end with the result array at `G` of the (agreeing) argument arrays. -/
theorem algebraic : Cert.algebraic_KernelIdeal_ReferenceIdeal := by
  intro m ρ m' ρ' _ hagree
  refine ⟨fun c => Cert.Qka.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), Cert.Qka.Kern.run m ρ, ?_⟩
  refine (θ_run Cert.ReferenceIdeal.defs _ _).mono (fun _ h c => ⟨(h c).1.trans ?_, (h c).2⟩)
    (Cert.ReferenceIdeal.Value.run (F := Ideal) m' ρ')
  refine (Cert.Qka.Ref.result_eq (StableHlo.launchContents m' c)).trans ?_
  show Cert.Qka.G (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1)) = _
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
